-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S3x128 .f32) (main_arg13 : FVec F S3x128 .f32) (main_arg14 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_v63 main_v67

def fn_part2 {F : FTy → Type} [FloatOps F] (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S3x128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x128 .f32 := Host.absf main_arg10
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x256 .f32) (main_arg1 : IVec S2x640000 32) (main_arg2 : FVec F S256x128 .f32) (main_arg3 : FVec F S128 .f32) (main_arg4 : FVec F S128 .f32) (main_arg5 : FVec F S128 .f32) (main_arg6 : FVec F S128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S3x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S640000x128 : Shape := ⟨2, ![640000, 128]⟩
abbrev S1x128x128 : Shape := ⟨3, ![1, 128, 128]⟩
abbrev S128x128 : Shape := ⟨2, ![128, 128]⟩

abbrev nBuf : Space → Nat
  | .hbm => 140
  | .vmem => 49
  | .smem => 0
  | _ => 0

abbrev hbmTy0_0 (i : Nat) : BufTy := match i % 128 with
  | 0 => ⟨S100000x256, .f32⟩
  | 1 => ⟨S2x640000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S3x128, .f32⟩
  | 15 => ⟨S1x640000, .i32⟩
  | 16 => ⟨S640000, .i32⟩
  | 17 => ⟨S1x640000, .i32⟩
  | 18 => ⟨S640000, .i32⟩
  | 19 => ⟨S_, .f32⟩
  | 20 => ⟨S640000, .f32⟩
  | 21 => ⟨S_, .f32⟩
  | 22 => ⟨S100000, .f32⟩
  | 23 => ⟨S640000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S100000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .f32⟩
  | 45 => ⟨S100000x128, .f32⟩
  | 46 => ⟨S640000x1, .i32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S100000x128, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x128, .f32⟩
  | 79 => ⟨S_, .f32⟩
  | 80 => ⟨S100000x128, .f32⟩
  | 81 => ⟨S640000x1, .i32⟩
  | 82 => ⟨S100000x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x128, .f32⟩
  | 114 => ⟨S_, .f32⟩
  | 115 => ⟨S100000x128, .f32⟩
  | 116 => ⟨S640000x1, .i32⟩
  | 117 => ⟨S100000x128, .f32⟩
  | 118 => ⟨S100000x128, .f32⟩
  | 119 => ⟨S100000x128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S100000x256, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_4 : Ref sig .tc := ⟨.hbm, 70, rfl⟩
abbrev main_v49 : Ref sig .tc := ⟨.hbm, 71, rfl⟩
abbrev main_v50 : Ref sig .tc := ⟨.hbm, 72, rfl⟩
abbrev main_c_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_7 : Ref sig .tc := ⟨.hbm, 105, rfl⟩
abbrev main_v81 : Ref sig .tc := ⟨.hbm, 106, rfl⟩
abbrev main_v82 : Ref sig .tc := ⟨.hbm, 107, rfl⟩
abbrev main_c_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_9 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg9_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem9_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  dot_S5000x256_S256x128_S5000x128_1_0_0_1_n_n_wf : DotDims.WF S5000x256 S256x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v79) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v80) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v107) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v108) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v110) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v111) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v112) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S100000x128 : Shape := ⟨2, ![100000, 128]⟩
abbrev S1x128 : Shape := ⟨2, ![1, 128]⟩
abbrev S640000x128 : Shape := ⟨2, ![640000, 128]⟩
abbrev S1x128x128 : Shape := ⟨3, ![1, 128, 128]⟩
abbrev S128x128 : Shape := ⟨2, ![128, 128]⟩

abbrev nBuf : Space → Nat
  | .hbm => 217
  | .vmem => 0
  | .smem => 0
  | _ => 0

abbrev hbmTy0_0 (i : Nat) : BufTy := match i % 128 with
  | 0 => ⟨S100000x256, .f32⟩
  | 1 => ⟨S2x640000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S3x128, .f32⟩
  | 15 => ⟨S1x640000, .i32⟩
  | 16 => ⟨S640000, .i32⟩
  | 17 => ⟨S1x640000, .i32⟩
  | 18 => ⟨S640000, .i32⟩
  | 19 => ⟨S_, .f32⟩
  | 20 => ⟨S640000, .f32⟩
  | 21 => ⟨S_, .f32⟩
  | 22 => ⟨S100000, .f32⟩
  | 23 => ⟨S640000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S_, .f32⟩
  | 62 => ⟨S100000x128, .f32⟩
  | 63 => ⟨S640000x1, .i32⟩
  | 64 => ⟨S100000x128, .f32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S_, .f32⟩
  | 117 => ⟨S100000x128, .f32⟩
  | 118 => ⟨S640000x1, .i32⟩
  | 119 => ⟨S100000x128, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S1x128, .f32⟩
  | 126 => ⟨S128, .f32⟩
  | 127 => ⟨S1x128, .f32⟩
  | _ => ⟨S100000x256, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S_, .f32⟩
  | 44 => ⟨S100000x128, .f32⟩
  | 45 => ⟨S640000x1, .i32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S1x128x128, .f32⟩
  | 58 => ⟨S128x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call1_cst : Ref sig .tc := ⟨.hbm, 103, rfl⟩
abbrev main_call1_v0 : Ref sig .tc := ⟨.hbm, 104, rfl⟩
abbrev main_v78 : Ref sig .tc := ⟨.hbm, 105, rfl⟩
abbrev main_v79 : Ref sig .tc := ⟨.hbm, 106, rfl⟩
abbrev main_c_6 : Ref sig .tc := ⟨.hbm, 107, rfl⟩
abbrev main_v80 : Ref sig .tc := ⟨.hbm, 108, rfl⟩
abbrev main_v81 : Ref sig .tc := ⟨.hbm, 109, rfl⟩
abbrev main_c_7 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_8 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_9 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_call2_cst : Ref sig .tc := ⟨.hbm, 158, rfl⟩
abbrev main_call2_v0 : Ref sig .tc := ⟨.hbm, 159, rfl⟩
abbrev main_v127 : Ref sig .tc := ⟨.hbm, 160, rfl⟩
abbrev main_v128 : Ref sig .tc := ⟨.hbm, 161, rfl⟩
abbrev main_c_10 : Ref sig .tc := ⟨.hbm, 162, rfl⟩
abbrev main_v129 : Ref sig .tc := ⟨.hbm, 163, rfl⟩
abbrev main_v130 : Ref sig .tc := ⟨.hbm, 164, rfl⟩
abbrev main_c_11 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_12 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_13 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_call3_cst : Ref sig .tc := ⟨.hbm, 213, rfl⟩
abbrev main_call3_v0 : Ref sig .tc := ⟨.hbm, 214, rfl⟩
abbrev main_v176 : Ref sig .tc := ⟨.hbm, 215, rfl⟩
abbrev main_v177 : Ref sig .tc := ⟨.hbm, 216, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  dot_S100000x256_S256x128_S100000x128_1_0_0_1_n_n_wf : DotDims.WF S100000x256 S256x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«128997_j62517543961152_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibNormedSage.lean ====
/-
  Two layers of a graph network with inference-mode batch normalisation, read one entry at a time on the
  extended reals, at any extents.

  * the input projection: `max (((x·w + b − mean) · rsqrt (var + ε)) · γ + β) 0`;
  * a mean-aggregating graph layer with a residual: `h + max ((((a·wl + bl) + h·wr − mean) · rsqrt (var + ε)) · γ + β) 0`,

  ε the f32 word 0x3727C5AC, the zero the f32 word 0x00000000, the sums and products in exactly this order. An
  entry (r, j) of either depends on row r of the left operands, column j of the weights and entry j of the five
  parameter vectors only (`projAt`, `sageAt`). So the layer computed on a block of rows — the matrix unit's products
  into zero accumulators, the parameters kept as [1, N] rows repeated down the block — is, at row p of the block,
  the same function of that row (`projBlock_apply`, `sageBlock_apply`): a layer computed one block of rows at a time
  is the whole layer. No law of arithmetic is used, so nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«128997_j62517543961152_1_alg».proof.Proof.LibRowsTimes
import proofs.«128997_j62517543961152_1_alg».proof.Proof.LibRowsCols

noncomputable section

namespace Cert.NormedSage

open Idealize.ShloMosaic Idealize.ShloMosaic.ValueIdx Cert.Dense

/-- Batch normalisation of one entry with stored statistics, then the rectifier:
    `max (((z − mean) · rsqrt (var + ε)) · γ + β) 0`. -/
def normRelu (z mean var g beta : EReal) : EReal :=
  max ((z - mean) * Ideal.rsqrt (var + Ideal.ofBits .f32 0x3727C5AC#32) * g + beta) (Ideal.ofBits .f32 0x00000000#32)

/-- One entry of the input projection from its row of `x` and its column of `w`. -/
def projAt {K : Nat} (row wcol : Fin K → EReal) (b mean var g beta : EReal) : EReal :=
  normRelu ((∑ k : Fin K, row k * wcol k) + b) mean var g beta

/-- One entry of the graph layer from its rows of the aggregate and of `h`, its columns of the two weights and its
    own entry `hj` of `h`. -/
def sageAt {K : Nat} (arow hrow wlcol wrcol : Fin K → EReal) (hj bl mean var g beta : EReal) : EReal :=
  hj + normRelu (((∑ k : Fin K, arow k * wlcol k) + bl) + ∑ k : Fin K, hrow k * wrcol k) mean var g beta

variable {M R K N : Nat}

/-- The input projection of a whole [M, K] array; the five parameters are given entry by entry. -/
def projLayer (x : (⟨2, ![M, K]⟩ : Shape).Idx → EReal) (w : (⟨2, ![K, N]⟩ : Shape).Idx → EReal)
    (b g beta mean var : Fin N → EReal) : (⟨2, ![M, N]⟩ : Shape).Idx → EReal :=
  fun i => projAt (fun k => x (ix2 (i 0 : Fin M) k)) (fun k => w (ix2 k (i 1 : Fin N)))
    (b (i 1 : Fin N)) (mean (i 1 : Fin N)) (var (i 1 : Fin N)) (g (i 1 : Fin N)) (beta (i 1 : Fin N))

/-- The graph layer of whole [M, K] arrays (aggregate and features), square weights. -/
def sageLayer (a h : (⟨2, ![M, K]⟩ : Shape).Idx → EReal) (wl wr : (⟨2, ![K, K]⟩ : Shape).Idx → EReal)
    (bl g beta mean var : Fin K → EReal) : (⟨2, ![M, K]⟩ : Shape).Idx → EReal :=
  fun i => sageAt (fun k => a (ix2 (i 0 : Fin M) k)) (fun k => h (ix2 (i 0 : Fin M) k))
    (fun k => wl (ix2 k (i 1 : Fin K))) (fun k => wr (ix2 k (i 1 : Fin K))) (h (ix2 (i 0 : Fin M) (i 1 : Fin K)))
    (bl (i 1 : Fin K)) (mean (i 1 : Fin K)) (var (i 1 : Fin K)) (g (i 1 : Fin K)) (beta (i 1 : Fin K))

/-- The matrix unit's product of two f32 blocks cast to bf16, into the zero accumulator, at (p, j). -/
theorem product_apply (d : DotDims ⟨2, ![R, K]⟩ ⟨2, ![K, N]⟩ ⟨2, ![R, N]⟩) (hd : RowsCols d)
    (a : FVec Ideal ⟨2, ![R, K]⟩ .f32) (w : FVec Ideal ⟨2, ![K, N]⟩ .f32)
    (ha : FTy.bf16.bits < FTy.f32.bits) (p : Fin R) (j : Fin N) :
    matmul d none (truncf .bf16 a ha) (truncf .bf16 w ha) (constant (F := Ideal) ⟨2, ![R, N]⟩ .f32 0x00000000#32) (ix2 p j)
      = ∑ k : Fin K, a (ix2 p k) * w (ix2 k j) :=
  matmul_zero_apply hd none (truncf .bf16 a ha) (truncf .bf16 w ha) (ix2 p j)

/-- THE INPUT PROJECTION ON A BLOCK of R rows, at (p, j): `projAt` of row p of the block. -/
theorem projBlock_apply (d : DotDims ⟨2, ![R, K]⟩ ⟨2, ![K, N]⟩ ⟨2, ![R, N]⟩) (hd : RowsCols d)
    (x : FVec Ideal ⟨2, ![R, K]⟩ .f32) (w : FVec Ideal ⟨2, ![K, N]⟩ .f32) (b mean var g beta : FVec Ideal ⟨2, ![1, N]⟩ .f32)
    (ht : FTy.bf16.bits < FTy.f32.bits) (h₁ : (⟨2, ![1, N]⟩ : Shape).ShapeCasts ⟨2, ![1, N]⟩)
    (h₂ : (⟨2, ![1, N]⟩ : Shape).Broadcasts ⟨2, ![R, N]⟩) (p : Fin R) (j : Fin N) :
    maximumf (addf (mulf (mulf (subf (addf
        (matmul d none (truncf .bf16 x ht) (truncf .bf16 w ht) (constant (F := Ideal) ⟨2, ![R, N]⟩ .f32 0x00000000#32))
        (broadcastTo ⟨2, ![R, N]⟩ (shapeCast ⟨2, ![1, N]⟩ b h₁) h₂))
        (broadcastTo ⟨2, ![R, N]⟩ (shapeCast ⟨2, ![1, N]⟩ mean h₁) h₂))
        (broadcastTo ⟨2, ![R, N]⟩ (rsqrt (addf (shapeCast ⟨2, ![1, N]⟩ var h₁)
          (broadcast ⟨2, ![1, N]⟩ (Scalar.ofBits (F := Ideal) .f32 0x3727C5AC#32)))) h₂))
        (broadcastTo ⟨2, ![R, N]⟩ (shapeCast ⟨2, ![1, N]⟩ g h₁) h₂))
        (broadcastTo ⟨2, ![R, N]⟩ (shapeCast ⟨2, ![1, N]⟩ beta h₁) h₂))
      (broadcast ⟨2, ![R, N]⟩ (Scalar.ofBits (F := Ideal) .f32 0x00000000#32)) (ix2 p j)
    = projAt (fun k => x (ix2 p k)) (fun k => w (ix2 k j)) (b (ix2 (0 : Fin 1) j)) (mean (ix2 (0 : Fin 1) j))
        (var (ix2 (0 : Fin 1) j)) (g (ix2 (0 : Fin 1) j)) (beta (ix2 (0 : Fin 1) j)) := by
  simp only [shapeCast_self]
  show max ((matmul d none (truncf .bf16 x ht) (truncf .bf16 w ht) (constant (F := Ideal) ⟨2, ![R, N]⟩ .f32 0x00000000#32) (ix2 p j)
        + broadcastTo ⟨2, ![R, N]⟩ b h₂ (ix2 p j) - broadcastTo ⟨2, ![R, N]⟩ mean h₂ (ix2 p j))
      * broadcastTo ⟨2, ![R, N]⟩ (rsqrt (addf var (broadcast ⟨2, ![1, N]⟩ (Scalar.ofBits (F := Ideal) .f32 0x3727C5AC#32)))) h₂ (ix2 p j)
      * broadcastTo ⟨2, ![R, N]⟩ g h₂ (ix2 p j)
      + broadcastTo ⟨2, ![R, N]⟩ beta h₂ (ix2 p j)) (Ideal.ofBits .f32 0x00000000#32) = _
  rw [product_apply d hd x w ht p j, broadcastTo_1b_ab_apply b h₂ p j, broadcastTo_1b_ab_apply mean h₂ p j,
    broadcastTo_1b_ab_apply _ h₂ p j, broadcastTo_1b_ab_apply g h₂ p j, broadcastTo_1b_ab_apply beta h₂ p j]
  rfl

/-- THE GRAPH LAYER ON A BLOCK of R rows, at (p, j): `sageAt` of row p of the two blocks (the blocks and the two
    weights pass through a cast to their own shape before use, as the kernel writes them). -/
theorem sageBlock_apply (d : DotDims ⟨2, ![R, K]⟩ ⟨2, ![K, K]⟩ ⟨2, ![R, K]⟩) (hd : RowsCols d)
    (a h : FVec Ideal ⟨2, ![R, K]⟩ .f32) (wl wr : FVec Ideal ⟨2, ![K, K]⟩ .f32) (bl mean var g beta : FVec Ideal ⟨2, ![1, K]⟩ .f32)
    (ht : FTy.bf16.bits < FTy.f32.bits) (hx : (⟨2, ![R, K]⟩ : Shape).ShapeCasts ⟨2, ![R, K]⟩)
    (hw : (⟨2, ![K, K]⟩ : Shape).ShapeCasts ⟨2, ![K, K]⟩) (h₁ : (⟨2, ![1, K]⟩ : Shape).ShapeCasts ⟨2, ![1, K]⟩)
    (h₂ : (⟨2, ![1, K]⟩ : Shape).Broadcasts ⟨2, ![R, K]⟩) (p : Fin R) (j : Fin K) :
    addf (shapeCast ⟨2, ![R, K]⟩ h hx) (maximumf (addf (mulf (mulf (subf (addf (addf
        (matmul d none (truncf .bf16 (shapeCast ⟨2, ![R, K]⟩ a hx) ht) (truncf .bf16 (shapeCast ⟨2, ![K, K]⟩ wl hw) ht)
          (constant (F := Ideal) ⟨2, ![R, K]⟩ .f32 0x00000000#32))
        (broadcastTo ⟨2, ![R, K]⟩ (shapeCast ⟨2, ![1, K]⟩ bl h₁) h₂))
        (matmul d none (truncf .bf16 (shapeCast ⟨2, ![R, K]⟩ h hx) ht) (truncf .bf16 (shapeCast ⟨2, ![K, K]⟩ wr hw) ht)
          (constant (F := Ideal) ⟨2, ![R, K]⟩ .f32 0x00000000#32)))
        (broadcastTo ⟨2, ![R, K]⟩ (shapeCast ⟨2, ![1, K]⟩ mean h₁) h₂))
        (broadcastTo ⟨2, ![R, K]⟩ (rsqrt (addf (shapeCast ⟨2, ![1, K]⟩ var h₁)
          (broadcast ⟨2, ![1, K]⟩ (Scalar.ofBits (F := Ideal) .f32 0x3727C5AC#32)))) h₂))
        (broadcastTo ⟨2, ![R, K]⟩ (shapeCast ⟨2, ![1, K]⟩ g h₁) h₂))
        (broadcastTo ⟨2, ![R, K]⟩ (shapeCast ⟨2, ![1, K]⟩ beta h₁) h₂))
      (broadcast ⟨2, ![R, K]⟩ (Scalar.ofBits (F := Ideal) .f32 0x00000000#32))) (ix2 p j)
    = sageAt (fun k => a (ix2 p k)) (fun k => h (ix2 p k)) (fun k => wl (ix2 k j)) (fun k => wr (ix2 k j)) (h (ix2 p j))
        (bl (ix2 (0 : Fin 1) j)) (mean (ix2 (0 : Fin 1) j)) (var (ix2 (0 : Fin 1) j)) (g (ix2 (0 : Fin 1) j))
        (beta (ix2 (0 : Fin 1) j)) := by
  simp only [shapeCast_self]
  show h (ix2 p j) + max ((matmul d none (truncf .bf16 a ht) (truncf .bf16 wl ht) (constant (F := Ideal) ⟨2, ![R, K]⟩ .f32 0x00000000#32) (ix2 p j)
        + broadcastTo ⟨2, ![R, K]⟩ bl h₂ (ix2 p j)
        + matmul d none (truncf .bf16 h ht) (truncf .bf16 wr ht) (constant (F := Ideal) ⟨2, ![R, K]⟩ .f32 0x00000000#32) (ix2 p j)
        - broadcastTo ⟨2, ![R, K]⟩ mean h₂ (ix2 p j))
      * broadcastTo ⟨2, ![R, K]⟩ (rsqrt (addf var (broadcast ⟨2, ![1, K]⟩ (Scalar.ofBits (F := Ideal) .f32 0x3727C5AC#32)))) h₂ (ix2 p j)
      * broadcastTo ⟨2, ![R, K]⟩ g h₂ (ix2 p j)
      + broadcastTo ⟨2, ![R, K]⟩ beta h₂ (ix2 p j)) (Ideal.ofBits .f32 0x00000000#32) = _
  rw [product_apply d hd a wl ht p j, product_apply d hd h wr ht p j, broadcastTo_1b_ab_apply bl h₂ p j,
    broadcastTo_1b_ab_apply mean h₂ p j, broadcastTo_1b_ab_apply _ h₂ p j, broadcastTo_1b_ab_apply g h₂ p j,
    broadcastTo_1b_ab_apply beta h₂ p j]
  rfl

end Cert.NormedSage

end
-- ==== Proof.LibNormedSageHost.lean ====
/-
  The two layers of LibNormedSage as the host computes them on whole arrays.

  The host multiplies with `dot_general`, lays each parameter vector along a new leading axis and repeats it down the
  rows (two `broadcast_in_dim` steps), computes `rsqrt (var + ε)` on the vector before repeating it, and takes the
  maximum with a zero scalar repeated to the whole shape. Read at (r, j) each of these is the entry of LibNormedSage's
  `projLayer` / `sageLayer`: the same sums and products in the same order, so no law of arithmetic is used and
  nothing needs the entries to be finite.
-/
import Idealize.ShloMosaic.PureOps.Ideal.Laws
import Idealize.ShloMosaic.Lib.ValueIdx
import Idealize.ShloMosaic.Lib.Pipeline.Value
import proofs.«128997_j62517543961152_1_alg».proof.Proof.LibRowsTimes
import proofs.«128997_j62517543961152_1_alg».proof.Proof.LibRowsCols
import proofs.«128997_j62517543961152_1_alg».proof.Proof.LibHostColumn
import proofs.«128997_j62517543961152_1_alg».proof.Proof.LibNormedSage

noncomputable section

namespace Cert.NormedSage

open Idealize.ShloMosaic Idealize.ShloMosaic.ValueIdx Cert.Dense

variable {M K N : Nat}

/-- A scalar constant repeated to any shape reads the constant's value everywhere. -/
theorem splat_apply {s : Shape} (w : BitVec 32) (h : (⟨0, ![]⟩ : Shape).BroadcastsInDim s ![]) (i : s.Idx) :
    broadcastInDim s ![] h (constant (F := Ideal) ⟨0, ![]⟩ .f32 w) i = Ideal.ofBits .f32 w :=
  broadcastInDim_apply _ h _ i ix0 fun a => a.elim0

/-- The host's scale row: `rsqrt (var + ε)` on the vector, laid along a leading axis and repeated down the rows. -/
theorem hostScale_apply (var : FVec Ideal ⟨1, ![N]⟩ .f32)
    (b3 : (⟨1, ![N]⟩ : Shape).BroadcastsInDim ⟨2, ![1, N]⟩ ![1])
    (b4 : (⟨2, ![1, N]⟩ : Shape).BroadcastsInDim ⟨2, ![M, N]⟩ ![0, 1])
    (bs : (⟨0, ![]⟩ : Shape).BroadcastsInDim ⟨1, ![N]⟩ ![]) (r : Fin M) (j : Fin N) :
    broadcastInDim ⟨2, ![M, N]⟩ ![0, 1] b4 (broadcastInDim ⟨2, ![1, N]⟩ ![1] b3
        (Host.rsqrt (addf var (broadcastInDim ⟨1, ![N]⟩ ![] bs (constant (F := Ideal) ⟨0, ![]⟩ .f32 0x3727C5AC#32))))) (ix2 r j)
      = Ideal.rsqrt (var (ix1 j) + Ideal.ofBits .f32 0x3727C5AC#32) := by
  rw [HostColumn.row_apply]
  show Ideal.rsqrt (var (ix1 j) + broadcastInDim ⟨1, ![N]⟩ ![] bs (constant (F := Ideal) ⟨0, ![]⟩ .f32 0x3727C5AC#32) (ix1 j)) = _
  rw [splat_apply]

/-- THE INPUT PROJECTION ON THE HOST is `projLayer`. -/
theorem hostProj_eq (d : DotDims ⟨2, ![M, K]⟩ ⟨2, ![K, N]⟩ ⟨2, ![M, N]⟩) (hd : RowsCols d)
    (x : FVec Ideal ⟨2, ![M, K]⟩ .f32) (w : FVec Ideal ⟨2, ![K, N]⟩ .f32) (b g beta mean var : FVec Ideal ⟨1, ![N]⟩ .f32)
    (b3 : (⟨1, ![N]⟩ : Shape).BroadcastsInDim ⟨2, ![1, N]⟩ ![1])
    (b4 : (⟨2, ![1, N]⟩ : Shape).BroadcastsInDim ⟨2, ![M, N]⟩ ![0, 1])
    (bs : (⟨0, ![]⟩ : Shape).BroadcastsInDim ⟨1, ![N]⟩ ![]) (bz : (⟨0, ![]⟩ : Shape).BroadcastsInDim ⟨2, ![M, N]⟩ ![]) :
    maximumf (addf (mulf (mulf (subf (addf (Host.dotGeneral d none x w)
        (broadcastInDim ⟨2, ![M, N]⟩ ![0, 1] b4 (broadcastInDim ⟨2, ![1, N]⟩ ![1] b3 b)))
        (broadcastInDim ⟨2, ![M, N]⟩ ![0, 1] b4 (broadcastInDim ⟨2, ![1, N]⟩ ![1] b3 mean)))
        (broadcastInDim ⟨2, ![M, N]⟩ ![0, 1] b4 (broadcastInDim ⟨2, ![1, N]⟩ ![1] b3
          (Host.rsqrt (addf var (broadcastInDim ⟨1, ![N]⟩ ![] bs (constant (F := Ideal) ⟨0, ![]⟩ .f32 0x3727C5AC#32)))))))
        (broadcastInDim ⟨2, ![M, N]⟩ ![0, 1] b4 (broadcastInDim ⟨2, ![1, N]⟩ ![1] b3 g)))
        (broadcastInDim ⟨2, ![M, N]⟩ ![0, 1] b4 (broadcastInDim ⟨2, ![1, N]⟩ ![1] b3 beta)))
      (broadcastInDim ⟨2, ![M, N]⟩ ![] bz (constant (F := Ideal) ⟨0, ![]⟩ .f32 0x00000000#32))
    = projLayer x w (fun j => b (ix1 j)) (fun j => g (ix1 j)) (fun j => beta (ix1 j)) (fun j => mean (ix1 j))
        (fun j => var (ix1 j)) := by
  funext i
  obtain ⟨r, j, rfl⟩ : ∃ (r : Fin M) (j : Fin N), i = ix2 r j := ⟨i 0, i 1, eq_ix2 i⟩
  show max ((Host.dotGeneral d none x w (ix2 r j)
        + broadcastInDim ⟨2, ![M, N]⟩ ![0, 1] b4 (broadcastInDim ⟨2, ![1, N]⟩ ![1] b3 b) (ix2 r j)
        - broadcastInDim ⟨2, ![M, N]⟩ ![0, 1] b4 (broadcastInDim ⟨2, ![1, N]⟩ ![1] b3 mean) (ix2 r j))
      * broadcastInDim ⟨2, ![M, N]⟩ ![0, 1] b4 (broadcastInDim ⟨2, ![1, N]⟩ ![1] b3
          (Host.rsqrt (addf var (broadcastInDim ⟨1, ![N]⟩ ![] bs (constant (F := Ideal) ⟨0, ![]⟩ .f32 0x3727C5AC#32))))) (ix2 r j)
      * broadcastInDim ⟨2, ![M, N]⟩ ![0, 1] b4 (broadcastInDim ⟨2, ![1, N]⟩ ![1] b3 g) (ix2 r j)
      + broadcastInDim ⟨2, ![M, N]⟩ ![0, 1] b4 (broadcastInDim ⟨2, ![1, N]⟩ ![1] b3 beta) (ix2 r j))
      (broadcastInDim ⟨2, ![M, N]⟩ ![] bz (constant (F := Ideal) ⟨0, ![]⟩ .f32 0x00000000#32) (ix2 r j)) = _
  rw [dotGeneral_apply hd, hostScale_apply, HostColumn.row_apply, HostColumn.row_apply, HostColumn.row_apply,
    HostColumn.row_apply, splat_apply]
  rfl

/-- THE GRAPH LAYER ON THE HOST is `sageLayer`. -/
theorem hostSage_eq (d : DotDims ⟨2, ![M, K]⟩ ⟨2, ![K, K]⟩ ⟨2, ![M, K]⟩) (hd : RowsCols d)
    (a h : FVec Ideal ⟨2, ![M, K]⟩ .f32) (wl wr : FVec Ideal ⟨2, ![K, K]⟩ .f32) (bl g beta mean var : FVec Ideal ⟨1, ![K]⟩ .f32)
    (b3 : (⟨1, ![K]⟩ : Shape).BroadcastsInDim ⟨2, ![1, K]⟩ ![1])
    (b4 : (⟨2, ![1, K]⟩ : Shape).BroadcastsInDim ⟨2, ![M, K]⟩ ![0, 1])
    (bs : (⟨0, ![]⟩ : Shape).BroadcastsInDim ⟨1, ![K]⟩ ![]) (bz : (⟨0, ![]⟩ : Shape).BroadcastsInDim ⟨2, ![M, K]⟩ ![]) :
    addf h (maximumf (addf (mulf (mulf (subf (addf (addf (Host.dotGeneral d none a wl)
        (broadcastInDim ⟨2, ![M, K]⟩ ![0, 1] b4 (broadcastInDim ⟨2, ![1, K]⟩ ![1] b3 bl)))
        (Host.dotGeneral d none h wr))
        (broadcastInDim ⟨2, ![M, K]⟩ ![0, 1] b4 (broadcastInDim ⟨2, ![1, K]⟩ ![1] b3 mean)))
        (broadcastInDim ⟨2, ![M, K]⟩ ![0, 1] b4 (broadcastInDim ⟨2, ![1, K]⟩ ![1] b3
          (Host.rsqrt (addf var (broadcastInDim ⟨1, ![K]⟩ ![] bs (constant (F := Ideal) ⟨0, ![]⟩ .f32 0x3727C5AC#32)))))))
        (broadcastInDim ⟨2, ![M, K]⟩ ![0, 1] b4 (broadcastInDim ⟨2, ![1, K]⟩ ![1] b3 g)))
        (broadcastInDim ⟨2, ![M, K]⟩ ![0, 1] b4 (broadcastInDim ⟨2, ![1, K]⟩ ![1] b3 beta)))
      (broadcastInDim ⟨2, ![M, K]⟩ ![] bz (constant (F := Ideal) ⟨0, ![]⟩ .f32 0x00000000#32)))
    = sageLayer a h wl wr (fun j => bl (ix1 j)) (fun j => g (ix1 j)) (fun j => beta (ix1 j)) (fun j => mean (ix1 j))
        (fun j => var (ix1 j)) := by
  funext i
  obtain ⟨r, j, rfl⟩ : ∃ (r : Fin M) (j : Fin K), i = ix2 r j := ⟨i 0, i 1, eq_ix2 i⟩
  show h (ix2 r j) + max ((Host.dotGeneral d none a wl (ix2 r j)
        + broadcastInDim ⟨2, ![M, K]⟩ ![0, 1] b4 (broadcastInDim ⟨2, ![1, K]⟩ ![1] b3 bl) (ix2 r j)
        + Host.dotGeneral d none h wr (ix2 r j)
        - broadcastInDim ⟨2, ![M, K]⟩ ![0, 1] b4 (broadcastInDim ⟨2, ![1, K]⟩ ![1] b3 mean) (ix2 r j))
      * broadcastInDim ⟨2, ![M, K]⟩ ![0, 1] b4 (broadcastInDim ⟨2, ![1, K]⟩ ![1] b3
          (Host.rsqrt (addf var (broadcastInDim ⟨1, ![K]⟩ ![] bs (constant (F := Ideal) ⟨0, ![]⟩ .f32 0x3727C5AC#32))))) (ix2 r j)
      * broadcastInDim ⟨2, ![M, K]⟩ ![0, 1] b4 (broadcastInDim ⟨2, ![1, K]⟩ ![1] b3 g) (ix2 r j)
      + broadcastInDim ⟨2, ![M, K]⟩ ![0, 1] b4 (broadcastInDim ⟨2, ![1, K]⟩ ![1] b3 beta) (ix2 r j))
      (broadcastInDim ⟨2, ![M, K]⟩ ![] bz (constant (F := Ideal) ⟨0, ![]⟩ .f32 0x00000000#32) (ix2 r j)) = _
  rw [dotGeneral_apply hd, dotGeneral_apply hd, hostScale_apply, HostColumn.row_apply, HostColumn.row_apply,
    HostColumn.row_apply, HostColumn.row_apply, splat_apply]
  rfl

end Cert.NormedSage

end
-- ==== Proof.RefValue.lean ====
/-
  The reference's result as a composition of four layers.

  The reference computes a graph network on 100000 nodes: an input projection with batch normalisation and a
  rectifier, then three times: the mean over each node's incoming edges of the features at the edges' sources
  (a gather at the sources, a scatter-add at the targets, a division by the clamped in-degree: `meanAgg`), and a
  layer `h + relu (norm (agg·Wl + bl + h·Wr))` with the layer's slices of the stacked parameters. Each dense layer,
  as the host computes it on whole arrays, is the entrywise function of LibNormedSage; the aggregation is kept as
  the host operations themselves, a function of the edge list and of the features it aggregates.
-/
import proofs.«128997_j62517543961152_1_alg».proof.Proof.Gen.ReferenceIdeal.Read
import proofs.«128997_j62517543961152_1_alg».proof.Proof.LibNormedSageHost

noncomputable section

namespace Cert.ReferenceIdeal.RefValue

open Cert.ReferenceIdeal Cert.ReferenceIdeal.Read Idealize.ShloMosaic Idealize.ShloMosaic.ValueIdx Cert.Dense Cert.NormedSage

/-- The host's [100000, 256] × [256, 128] product contracts the shared axis: rows times columns. -/
theorem rowsCols_in : RowsCols dot_S100000x256_S256x128_S100000x128_1_0_0_1_n_n :=
  ⟨rfl, rfl, fun _ _ => rfl, fun _ _ => rfl, fun _ _ => rfl, fun _ _ => rfl⟩
/-- So does its [100000, 128] × [128, 128] product. -/
theorem rowsCols_hid : RowsCols dot_S100000x128_S128x128_S100000x128_1_0_0_1_n_n :=
  ⟨rfl, rfl, fun _ _ => rfl, fun _ _ => rfl, fun _ _ => rfl, fun _ _ => rfl⟩

/-- The mean of the features `h` over each node's incoming edges, as the host computes it from the edge list `x1`:
    rows of `h` gathered at the edges' sources (negative indices wrapped), added into a zero array at the edges'
    targets, divided by the in-degree clamped below at one. -/
def meanAgg (x1 : (⟨S2x640000, .i32⟩ : BufTy).Contents (Elt Ideal)) (h : (⟨S100000x128, .f32⟩ : BufTy).Contents (Elt Ideal)) : (⟨S100000x128, .f32⟩ : BufTy).Contents (Elt Ideal) :=
  Host.divf (F := Ideal) (s := S100000x128) (φ := .f32)
    (Host.scatterAdd (F := Ideal) scatter_S100000x128_S640000x1_S640000x128_1_0_0_1 (val_main_v38 (F := Ideal)) (val_main_v39 (F := Ideal) x1)
      (Host.gather gather_S100000x128_S640000x1_S640000x128_1_0_n_n_0_1_1128 h (val_main_v36 (F := Ideal) x1))) (val_main_v41 (F := Ideal) x1)

/-- The features after the input projection. -/
def feat0 (x0 : (⟨S100000x256, .f32⟩ : BufTy).Contents (Elt Ideal)) (x2 : (⟨S256x128, .f32⟩ : BufTy).Contents (Elt Ideal)) (x3 x4 x5 x6 x7 : (⟨S128, .f32⟩ : BufTy).Contents (Elt Ideal)) : (⟨S100000x128, .f32⟩ : BufTy).Contents (Elt Ideal) :=
  projLayer (M := 100000) (K := 256) (N := 128) x0 x2 (fun j => x3 (ix1 j)) (fun j => x4 (ix1 j)) (fun j => x5 (ix1 j)) (fun j => x6 (ix1 j)) (fun j => x7 (ix1 j))

/-- One graph layer with the parameters already sliced out of the stacks. -/
def layer (x1 : (⟨S2x640000, .i32⟩ : BufTy).Contents (Elt Ideal)) (h : (⟨S100000x128, .f32⟩ : BufTy).Contents (Elt Ideal)) (wl wr : (⟨S128x128, .f32⟩ : BufTy).Contents (Elt Ideal)) (bl g beta mean var : (⟨S128, .f32⟩ : BufTy).Contents (Elt Ideal)) : (⟨S100000x128, .f32⟩ : BufTy).Contents (Elt Ideal) :=
  sageLayer (M := 100000) (K := 128) (meanAgg x1 h) h wl wr (fun j => bl (ix1 j)) (fun j => g (ix1 j)) (fun j => beta (ix1 j)) (fun j => mean (ix1 j)) (fun j => var (ix1 j))

/-- The features after the first graph layer. -/
def feat1 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : (⟨S100000x128, .f32⟩ : BufTy).Contents (Elt Ideal) :=
  layer x1 (feat0 x0 x2 x3 x4 x5 x6 x7) (val_main_v44 (F := Ideal) x8) (val_main_v52 (F := Ideal) x10) (val_main_v47 (F := Ideal) x9) (val_main_v56 (F := Ideal) x11) (val_main_v58 (F := Ideal) x12) (val_main_v60 (F := Ideal) x13) (val_main_v62 (F := Ideal) x14)
/-- The features after the second graph layer. -/
def feat2 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : (⟨S100000x128, .f32⟩ : BufTy).Contents (Elt Ideal) :=
  layer x1 (feat1 x0 x1 x2 x3 x4 x5 x6 x7 x8 x9 x10 x11 x12 x13 x14) (val_main_v93 (F := Ideal) x8) (val_main_v101 (F := Ideal) x10) (val_main_v96 (F := Ideal) x9) (val_main_v105 (F := Ideal) x11) (val_main_v107 (F := Ideal) x12) (val_main_v109 (F := Ideal) x13) (val_main_v111 (F := Ideal) x14)
/-- The features after the third graph layer: the result. -/
def feat3 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : (⟨S100000x128, .f32⟩ : BufTy).Contents (Elt Ideal) :=
  layer x1 (feat2 x0 x1 x2 x3 x4 x5 x6 x7 x8 x9 x10 x11 x12 x13 x14) (val_main_v142 (F := Ideal) x8) (val_main_v150 (F := Ideal) x10) (val_main_v145 (F := Ideal) x9) (val_main_v154 (F := Ideal) x11) (val_main_v156 (F := Ideal) x12) (val_main_v158 (F := Ideal) x13) (val_main_v160 (F := Ideal) x14)

/-- The reference's input projection is `feat0`. -/
theorem stage_feat0 (x0 : (⟨S100000x256, .f32⟩ : BufTy).Contents (Elt Ideal)) (x2 : (⟨S256x128, .f32⟩ : BufTy).Contents (Elt Ideal)) (x3 x4 x5 x6 x7 : (⟨S128, .f32⟩ : BufTy).Contents (Elt Ideal)) : val_main_v30 (F := Ideal) x0 x2 x3 x4 x5 x6 x7 = feat0 x0 x2 x3 x4 x5 x6 x7 :=
  hostProj_eq _ rowsCols_in x0 x2 x3 x4 x5 x6 x7 _ _ _ _

/-- Each aggregation is `meanAgg` of the features before it. -/
theorem stage_agg1 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v42 (F := Ideal) x0 x1 x2 x3 x4 x5 x6 x7 = meanAgg x1 (val_main_v30 (F := Ideal) x0 x2 x3 x4 x5 x6 x7) := rfl
theorem stage_agg2 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v91 (F := Ideal) x0 x1 x2 x3 x4 x5 x6 x7 x8 x9 x10 x11 x12 x13 x14 = meanAgg x1 (val_main_v79 (F := Ideal) x0 x1 x2 x3 x4 x5 x6 x7 x8 x9 x10 x11 x12 x13 x14) := rfl
theorem stage_agg3 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v140 (F := Ideal) x0 x1 x2 x3 x4 x5 x6 x7 x8 x9 x10 x11 x12 x13 x14 = meanAgg x1 (val_main_v128 (F := Ideal) x0 x1 x2 x3 x4 x5 x6 x7 x8 x9 x10 x11 x12 x13 x14) := rfl

/-- Each graph layer on the host is `sageLayer` of its aggregate, its features and its slices of the parameters. -/
theorem stage_layer1 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v79 (F := Ideal) x0 x1 x2 x3 x4 x5 x6 x7 x8 x9 x10 x11 x12 x13 x14 = layer x1 (val_main_v30 (F := Ideal) x0 x2 x3 x4 x5 x6 x7) (val_main_v44 (F := Ideal) x8) (val_main_v52 (F := Ideal) x10) (val_main_v47 (F := Ideal) x9) (val_main_v56 (F := Ideal) x11) (val_main_v58 (F := Ideal) x12) (val_main_v60 (F := Ideal) x13) (val_main_v62 (F := Ideal) x14) :=
  hostSage_eq _ rowsCols_hid (val_main_v42 (F := Ideal) x0 x1 x2 x3 x4 x5 x6 x7) (val_main_v30 (F := Ideal) x0 x2 x3 x4 x5 x6 x7) (val_main_v44 (F := Ideal) x8) (val_main_v52 (F := Ideal) x10) (val_main_v47 (F := Ideal) x9) (val_main_v56 (F := Ideal) x11) (val_main_v58 (F := Ideal) x12) (val_main_v60 (F := Ideal) x13) (val_main_v62 (F := Ideal) x14) _ _ _ _
theorem stage_layer2 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v128 (F := Ideal) x0 x1 x2 x3 x4 x5 x6 x7 x8 x9 x10 x11 x12 x13 x14 = layer x1 (val_main_v79 (F := Ideal) x0 x1 x2 x3 x4 x5 x6 x7 x8 x9 x10 x11 x12 x13 x14) (val_main_v93 (F := Ideal) x8) (val_main_v101 (F := Ideal) x10) (val_main_v96 (F := Ideal) x9) (val_main_v105 (F := Ideal) x11) (val_main_v107 (F := Ideal) x12) (val_main_v109 (F := Ideal) x13) (val_main_v111 (F := Ideal) x14) :=
  hostSage_eq _ rowsCols_hid (val_main_v91 (F := Ideal) x0 x1 x2 x3 x4 x5 x6 x7 x8 x9 x10 x11 x12 x13 x14) (val_main_v79 (F := Ideal) x0 x1 x2 x3 x4 x5 x6 x7 x8 x9 x10 x11 x12 x13 x14) (val_main_v93 (F := Ideal) x8) (val_main_v101 (F := Ideal) x10) (val_main_v96 (F := Ideal) x9) (val_main_v105 (F := Ideal) x11) (val_main_v107 (F := Ideal) x12) (val_main_v109 (F := Ideal) x13) (val_main_v111 (F := Ideal) x14) _ _ _ _
theorem stage_layer3 (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v177 (F := Ideal) x0 x1 x2 x3 x4 x5 x6 x7 x8 x9 x10 x11 x12 x13 x14 = layer x1 (val_main_v128 (F := Ideal) x0 x1 x2 x3 x4 x5 x6 x7 x8 x9 x10 x11 x12 x13 x14) (val_main_v142 (F := Ideal) x8) (val_main_v150 (F := Ideal) x10) (val_main_v145 (F := Ideal) x9) (val_main_v154 (F := Ideal) x11) (val_main_v156 (F := Ideal) x12) (val_main_v158 (F := Ideal) x13) (val_main_v160 (F := Ideal) x14) :=
  hostSage_eq _ rowsCols_hid (val_main_v140 (F := Ideal) x0 x1 x2 x3 x4 x5 x6 x7 x8 x9 x10 x11 x12 x13 x14) (val_main_v128 (F := Ideal) x0 x1 x2 x3 x4 x5 x6 x7 x8 x9 x10 x11 x12 x13 x14) (val_main_v142 (F := Ideal) x8) (val_main_v150 (F := Ideal) x10) (val_main_v145 (F := Ideal) x9) (val_main_v154 (F := Ideal) x11) (val_main_v156 (F := Ideal) x12) (val_main_v158 (F := Ideal) x13) (val_main_v160 (F := Ideal) x14) _ _ _ _

/-- THE REFERENCE'S RESULT is the four layers composed. -/
theorem result_eq (x0 : (⟨S100000x256, .f32⟩ : BufTy).Contents (Elt Ideal)) (x1 : (⟨S2x640000, .i32⟩ : BufTy).Contents (Elt Ideal)) (x2 : (⟨S256x128, .f32⟩ : BufTy).Contents (Elt Ideal)) (x3 x4 x5 x6 x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 x12 x13 x14 : (⟨S3x128, .f32⟩ : BufTy).Contents (Elt Ideal)) : val_main_v177 (F := Ideal) x0 x1 x2 x3 x4 x5 x6 x7 x8 x9 x10 x11 x12 x13 x14 = feat3 x0 x1 x2 x3 x4 x5 x6 x7 x8 x9 x10 x11 x12 x13 x14 := by
  rw [stage_layer3, stage_layer2, stage_layer1, stage_feat0]
  rfl

end Cert.ReferenceIdeal.RefValue

end
-- ==== Proof.KernelRun.lean ====
/-
  The idealized kernel's run with its RESULT named.

  @main is four launches among stretches of host operations. The buffer contents at the boundaries between them
  are a fold from the launch memory: a stretch applies its operations, a launch replaces its arrays by what its
  write-backs leave. Every weakly fair execution terminates without a fault, and at the end every unscoped buffer
  holds the last boundary's contents `W8`; read at the result buffer that is the value this certificate is about,
  and read at an argument it is the argument as launched.
-/
import proofs.«128997_j62517543961152_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v112) = W8 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v112 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.RunValue

end
-- ==== Proof.KernelBlocks.lean ====
/-
  What each launch's body leaves in its output block, one entry at a time.

  Launch 0 computes the input projection on a block of 5000 rows of `x`; launches 1 to 3 compute one graph layer
  each on a block of 5000 rows of the aggregate and of the features. The weights and the five parameter rows are
  whole in every block. An entry (p, j) of the output block is LibNormedSage's `projAt` / `sageAt` of row p of the
  row blocks: the casts to bf16 are the identity on the extended reals, and each matrix unit's product into a zero
  accumulator is the sum over the shared axis.
-/
import proofs.«128997_j62517543961152_1_alg».proof.Proof.Gen.KernelIdeal.Frame
import proofs.«128997_j62517543961152_1_alg».proof.Proof.LibNormedSage

set_option maxRecDepth 16384

noncomputable section

namespace Cert.KernelIdeal.Blocks

open Cert.KernelIdeal Cert.KernelIdeal.Gen Idealize.ShloMosaic Idealize.ShloMosaic.ValueIdx Cert.Dense Cert.NormedSage

theorem hz : (![0, 0] : Fin 2 → Nat) = fun _ => 0 := funext fun a => by fin_cases a <;> rfl

/-- The [5000, 256] × [256, 128] product of launch 0 contracts the shared axis: rows times columns. -/
theorem rowsCols_in : RowsCols dot_S5000x256_S256x128_S5000x128_1_0_0_1_n_n :=
  ⟨rfl, rfl, fun _ _ => rfl, fun _ _ => rfl, fun _ _ => rfl, fun _ _ => rfl⟩
/-- So do the [5000, 128] × [128, 128] products of launches 1 to 3. -/
theorem rowsCols_hid : RowsCols dot_S5000x128_S128x128_S5000x128_1_0_0_1_n_n :=
  ⟨rfl, rfl, fun _ _ => rfl, fun _ _ => rfl, fun _ _ => rfl, fun _ _ => rfl⟩

/-- What launch 0's body leaves in its output block, at (p, j): the projection's entry from row p of the block of
    `x`, column j of the weight and entry j of the five parameter rows. -/
theorem out0_7_apply (x0 : Vec Ideal S5000x256 .f32) (x1 : Vec Ideal S256x128 .f32) (x2 x3 x4 x5 x6 : Vec Ideal S1x128 .f32)
    (p : Fin 5000) (j : Fin 128) :
    out0_7 (F := Ideal) x0 x1 x2 x3 x4 x5 x6 (ix2 p j)
      = projAt (fun k => x0 (ix2 p k)) (fun k => x1 (ix2 k j)) (x2 (ix2 (0 : Fin 1) j)) (x5 (ix2 (0 : Fin 1) j))
          (x6 (ix2 (0 : Fin 1) j)) (x3 (ix2 (0 : Fin 1) j)) (x4 (ix2 (0 : Fin 1) j)) := by
  unfold out0_7
  rw [View.canon_unit_zero hz]
  simp only [View.ld_unit_zero (S := S5000x256) hz, View.ld_unit_zero (S := S256x128) hz, View.ld_unit_zero (S := S1x128) hz]
  exact projBlock_apply (R := 5000) (K := 256) (N := 128) _ rowsCols_in x0 x1 x2 x5 x6 x3 x4 _ _ _ p j

/-- What launch 1's body leaves in its output block, at (p, j): the graph layer's entry from row p of the two
    row blocks, column j of the two weights and entry j of the five parameter rows. -/
theorem out1_9_apply (x0 x1 : Vec Ideal S5000x128 .f32) (x2 : Vec Ideal S128x128 .f32) (x3 : Vec Ideal S1x128 .f32)
    (x4 : Vec Ideal S128x128 .f32) (x5 x6 x7 x8 : Vec Ideal S1x128 .f32) (p : Fin 5000) (j : Fin 128) :
    out1_9 (F := Ideal) x0 x1 x2 x3 x4 x5 x6 x7 x8 (ix2 p j)
      = sageAt (fun k => x0 (ix2 p k)) (fun k => x1 (ix2 p k)) (fun k => x2 (ix2 k j)) (fun k => x4 (ix2 k j)) (x1 (ix2 p j))
          (x3 (ix2 (0 : Fin 1) j)) (x7 (ix2 (0 : Fin 1) j)) (x8 (ix2 (0 : Fin 1) j)) (x5 (ix2 (0 : Fin 1) j)) (x6 (ix2 (0 : Fin 1) j)) := by
  unfold out1_9
  rw [View.canon_unit_zero hz]
  simp only [View.ld_unit_zero (S := S5000x128) hz, View.ld_unit_zero (S := S128x128) hz, View.ld_unit_zero (S := S1x128) hz]
  exact sageBlock_apply (R := 5000) (K := 128) _ rowsCols_hid x0 x1 x2 x4 x3 x7 x8 x5 x6 _ _ _ _ _ p j

/-- What launch 2's body leaves in its output block, at (p, j): the graph layer's entry from row p of the two
    row blocks, column j of the two weights and entry j of the five parameter rows. -/
theorem out2_9_apply (x0 x1 : Vec Ideal S5000x128 .f32) (x2 : Vec Ideal S128x128 .f32) (x3 : Vec Ideal S1x128 .f32)
    (x4 : Vec Ideal S128x128 .f32) (x5 x6 x7 x8 : Vec Ideal S1x128 .f32) (p : Fin 5000) (j : Fin 128) :
    out2_9 (F := Ideal) x0 x1 x2 x3 x4 x5 x6 x7 x8 (ix2 p j)
      = sageAt (fun k => x0 (ix2 p k)) (fun k => x1 (ix2 p k)) (fun k => x2 (ix2 k j)) (fun k => x4 (ix2 k j)) (x1 (ix2 p j))
          (x3 (ix2 (0 : Fin 1) j)) (x7 (ix2 (0 : Fin 1) j)) (x8 (ix2 (0 : Fin 1) j)) (x5 (ix2 (0 : Fin 1) j)) (x6 (ix2 (0 : Fin 1) j)) := by
  unfold out2_9
  rw [View.canon_unit_zero hz]
  simp only [View.ld_unit_zero (S := S5000x128) hz, View.ld_unit_zero (S := S128x128) hz, View.ld_unit_zero (S := S1x128) hz]
  exact sageBlock_apply (R := 5000) (K := 128) _ rowsCols_hid x0 x1 x2 x4 x3 x7 x8 x5 x6 _ _ _ _ _ p j

/-- What launch 3's body leaves in its output block, at (p, j): the graph layer's entry from row p of the two
    row blocks, column j of the two weights and entry j of the five parameter rows. -/
theorem out3_9_apply (x0 x1 : Vec Ideal S5000x128 .f32) (x2 : Vec Ideal S128x128 .f32) (x3 : Vec Ideal S1x128 .f32)
    (x4 : Vec Ideal S128x128 .f32) (x5 x6 x7 x8 : Vec Ideal S1x128 .f32) (p : Fin 5000) (j : Fin 128) :
    out3_9 (F := Ideal) x0 x1 x2 x3 x4 x5 x6 x7 x8 (ix2 p j)
      = sageAt (fun k => x0 (ix2 p k)) (fun k => x1 (ix2 p k)) (fun k => x2 (ix2 k j)) (fun k => x4 (ix2 k j)) (x1 (ix2 p j))
          (x3 (ix2 (0 : Fin 1) j)) (x7 (ix2 (0 : Fin 1) j)) (x8 (ix2 (0 : Fin 1) j)) (x5 (ix2 (0 : Fin 1) j)) (x6 (ix2 (0 : Fin 1) j)) := by
  unfold out3_9
  rw [View.canon_unit_zero hz]
  simp only [View.ld_unit_zero (S := S5000x128) hz, View.ld_unit_zero (S := S128x128) hz, View.ld_unit_zero (S := S1x128) hz]
  exact sageBlock_apply (R := 5000) (K := 128) _ rowsCols_hid x0 x1 x2 x4 x3 x7 x8 x5 x6 _ _ _ _ _ p j

end Cert.KernelIdeal.Blocks

end
-- ==== Proof.KernelArrays.lean ====
/-
  From blocks to arrays: what each launch leaves in its output array, as one function of the arrays it finds.

  Each launch runs its body at 20 grid points. At point t the row operands' blocks are rows 5000·t … 5000·t + 4999
  of their arrays and every other operand's block is its whole array; the output block is written back to the same
  rows of the output array. Since an entry of the layer depends on its own row of the row operands only
  (KernelBlocks), block t of the output is block t of the layer applied to the whole arrays, and the 20 blocks
  cover the 100000 rows. The contents `V` the launch finds at its entry are a parameter here.
-/
import proofs.«128997_j62517543961152_1_alg».proof.Proof.KernelBlocks
import Idealize.ShloMosaic.Lib.Pipeline.Value

set_option maxRecDepth 16384

noncomputable section

namespace Cert.KernelIdeal.Arrays

open Cert.KernelIdeal Cert.KernelIdeal.Gen Cert.KernelIdeal.Blocks
open Idealize.ShloMosaic Idealize.ShloMosaic.TcCoe Idealize.ShloMosaic.ValueIdx Idealize.SL.Sem Cert.Dense Cert.NormedSage
open Idealize.ShloMosaic.Pipeline (Dat)

variable (V : (c : Dev nD) → (b : Ref sig .tc) → Buf (Elt Ideal) ((c : Thread nD τ).loc b))

/-! ## Launch 0 -/

/-- The printed index maps of launch 0, decided over its 20 grid points: a row block moves with the point, every
    other block stays at the origin. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

theorem lt0 (t : Fin cfg0.N) : t.val < 20 := lt_of_lt_of_eq t.isLt N_0

/-- Row p of point t's block of window 0 is row 5000·t + p of its array. -/
theorem read0_0 (c : Dev nD) (t : Fin cfg0.N) (p : Fin 5000) (r : Fin 100000) (hr : r.val = t.val * 5000 + p.val) (k : Fin 256) :
    iblk0 V c 0 t (ix2 p k) = V c main_arg0 (ix2 r k) := by
  obtain ⟨e0_0, e0_1, e1_0, e1_1, e2_0, e2_1, e3_0, e3_1, e4_0, e4_1, e5_0, e5_1, e6_0, e6_1, e7_0, e7_1⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- Window 1's block is its whole array at every point. -/
theorem read0_1 (c : Dev nD) (t : Fin cfg0.N) (k : Fin 256) (j : Fin 128) :
    iblk0 V c 1 t (ix2 k j) = V c main_arg2 (ix2 k j) := by
  obtain ⟨e0_0, e0_1, e1_0, e1_1, e2_0, e2_1, e3_0, e3_1, e4_0, e4_1, e5_0, e5_1, e6_0, e6_1, e7_0, e7_1⟩ := idx0 t
  show V c main_arg2 (((cfg0.win 1).blk t).view.emb (ix2 k j)) = V c main_arg2 (ix2 k j)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 128 + 1 * j.val = j.val; omega

/-- Window 2's block is its whole array at every point. -/
theorem read0_2 (c : Dev nD) (t : Fin cfg0.N) (k : Fin 1) (j : Fin 128) :
    iblk0 V c 2 t (ix2 k j) = V c main_v11 (ix2 k j) := by
  obtain ⟨e0_0, e0_1, e1_0, e1_1, e2_0, e2_1, e3_0, e3_1, e4_0, e4_1, e5_0, e5_1, e6_0, e6_1, e7_0, e7_1⟩ := idx0 t
  show V c main_v11 (((cfg0.win 2).blk t).view.emb (ix2 k j)) = V c main_v11 (ix2 k j)
  refine congrArg (V c main_v11) (funext fun a => Fin.ext ?_)
  match a with
  | ⟨0, _⟩ => show win0_2.index t (0 : Fin 2) * 1 + 1 * k.val = k.val; omega
  | ⟨1, _⟩ => show win0_2.index t (1 : Fin 2) * 128 + 1 * j.val = j.val; omega

/-- Window 3's block is its whole array at every point. -/
theorem read0_3 (c : Dev nD) (t : Fin cfg0.N) (k : Fin 1) (j : Fin 128) :
    iblk0 V c 3 t (ix2 k j) = V c main_v12 (ix2 k j) := by
  obtain ⟨e0_0, e0_1, e1_0, e1_1, e2_0, e2_1, e3_0, e3_1, e4_0, e4_1, e5_0, e5_1, e6_0, e6_1, e7_0, e7_1⟩ := idx0 t
  show V c main_v12 (((cfg0.win 3).blk t).view.emb (ix2 k j)) = V c main_v12 (ix2 k j)
  refine congrArg (V c main_v12) (funext fun a => Fin.ext ?_)
  match a with
  | ⟨0, _⟩ => show win0_3.index t (0 : Fin 2) * 1 + 1 * k.val = k.val; omega
  | ⟨1, _⟩ => show win0_3.index t (1 : Fin 2) * 128 + 1 * j.val = j.val; omega

/-- Window 4's block is its whole array at every point. -/
theorem read0_4 (c : Dev nD) (t : Fin cfg0.N) (k : Fin 1) (j : Fin 128) :
    iblk0 V c 4 t (ix2 k j) = V c main_v13 (ix2 k j) := by
  obtain ⟨e0_0, e0_1, e1_0, e1_1, e2_0, e2_1, e3_0, e3_1, e4_0, e4_1, e5_0, e5_1, e6_0, e6_1, e7_0, e7_1⟩ := idx0 t
  show V c main_v13 (((cfg0.win 4).blk t).view.emb (ix2 k j)) = V c main_v13 (ix2 k j)
  refine congrArg (V c main_v13) (funext fun a => Fin.ext ?_)
  match a with
  | ⟨0, _⟩ => show win0_4.index t (0 : Fin 2) * 1 + 1 * k.val = k.val; omega
  | ⟨1, _⟩ => show win0_4.index t (1 : Fin 2) * 128 + 1 * j.val = j.val; omega

/-- Window 5's block is its whole array at every point. -/
theorem read0_5 (c : Dev nD) (t : Fin cfg0.N) (k : Fin 1) (j : Fin 128) :
    iblk0 V c 5 t (ix2 k j) = V c main_v14 (ix2 k j) := by
  obtain ⟨e0_0, e0_1, e1_0, e1_1, e2_0, e2_1, e3_0, e3_1, e4_0, e4_1, e5_0, e5_1, e6_0, e6_1, e7_0, e7_1⟩ := idx0 t
  show V c main_v14 (((cfg0.win 5).blk t).view.emb (ix2 k j)) = V c main_v14 (ix2 k j)
  refine congrArg (V c main_v14) (funext fun a => Fin.ext ?_)
  match a with
  | ⟨0, _⟩ => show win0_5.index t (0 : Fin 2) * 1 + 1 * k.val = k.val; omega
  | ⟨1, _⟩ => show win0_5.index t (1 : Fin 2) * 128 + 1 * j.val = j.val; omega

/-- Window 6's block is its whole array at every point. -/
theorem read0_6 (c : Dev nD) (t : Fin cfg0.N) (k : Fin 1) (j : Fin 128) :
    iblk0 V c 6 t (ix2 k j) = V c main_v15 (ix2 k j) := by
  obtain ⟨e0_0, e0_1, e1_0, e1_1, e2_0, e2_1, e3_0, e3_1, e4_0, e4_1, e5_0, e5_1, e6_0, e6_1, e7_0, e7_1⟩ := idx0 t
  show V c main_v15 (((cfg0.win 6).blk t).view.emb (ix2 k j)) = V c main_v15 (ix2 k j)
  refine congrArg (V c main_v15) (funext fun a => Fin.ext ?_)
  match a with
  | ⟨0, _⟩ => show win0_6.index t (0 : Fin 2) * 1 + 1 * k.val = k.val; omega
  | ⟨1, _⟩ => show win0_6.index t (1 : Fin 2) * 128 + 1 * j.val = j.val; omega

/-- What launch 0 leaves in its output array, as one function of the arrays it finds at its entry: the input projection
    of the whole arrays, the parameter rows read at their one row. -/
def G0 (c : Dev nD) : S100000x128.Idx → EReal :=
  projLayer (M := 100000) (K := 256) (N := 128) (V c main_arg0) (V c main_arg2) (fun j => V c main_v11 (ix2 (0 : Fin 1) j)) (fun j => V c main_v12 (ix2 (0 : Fin 1) j)) (fun j => V c main_v13 (ix2 (0 : Fin 1) j)) (fun j => V c main_v14 (ix2 (0 : Fin 1) j)) (fun j => V c main_v15 (ix2 (0 : Fin 1) j))

/-- What point t writes back is block t of that function: row p of the block depends on row 5000·t + p of the row
    operands only. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  obtain ⟨e0_0, e0_1, e1_0, e1_1, e2_0, e2_1, e3_0, e3_1, e4_0, e4_1, e5_0, e5_1, e6_0, e6_1, e7_0, e7_1⟩ := idx0 t
  funext y
  obtain ⟨p, j, rfl⟩ : ∃ (p : Fin 5000) (j : Fin 128), y = ix2 p j := ⟨y 0, y 1, eq_ix2 y⟩
  have ht := lt0 t
  have hp := p.isLt
  obtain ⟨r, hr⟩ : ∃ r : Fin 100000, r.val = t.val * 5000 + p.val := ⟨⟨t.val * 5000 + p.val, by omega⟩, rfl⟩
  have hemb : ((cfg0.win 7).blk t).view.emb (ix2 p j) = ix2 r j := by
    funext a; apply Fin.ext
    match a with
    | ⟨0, _⟩ => show win0_7.index t (0 : Fin 2) * 5000 + 1 * p.val = r.val; omega
    | ⟨1, _⟩ => show win0_7.index t (1 : Fin 2) * 128 + 1 * j.val = j.val; omega
  show out0_7 (F := Ideal) (iblk0 V c 0 t) (iblk0 V c 1 t) (iblk0 V c 2 t) (iblk0 V c 3 t) (iblk0 V c 4 t) (iblk0 V c 5 t) (iblk0 V c 6 t) (ix2 p j) = G0 V c (((cfg0.win 7).blk t).view.emb (ix2 p j))
  rw [hemb]
  refine (out0_7_apply (iblk0 V c 0 t) (iblk0 V c 1 t) (iblk0 V c 2 t) (iblk0 V c 3 t) (iblk0 V c 4 t) (iblk0 V c 5 t) (iblk0 V c 6 t) p j).trans ?_
  simp only [read0_0 V c t p r hr, read0_1 V c t, read0_2 V c t, read0_3 V c t, read0_4 V c t, read0_5 V c t, read0_6 V c t]
  rfl

/-- An index of the output array is in point t's block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v16).slice (win0_7.rect t)).set ↔ _
  rw [View.set_slice_whole, Rect.mem_set_unit]
  exact Iff.rfl

/-- The 20 blocks of 5000 rows cover the 100000 rows: row r is in the block of point r / 5000. -/
theorem cover0 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_7 _, ?_⟩
  rw [mem_blk0]
  have q0 : win0_7.index ⟨(i 0).val / 5000, hN⟩ (0 : Fin 2) = (i 0).val / 5000 := (idx0 ⟨(i 0).val / 5000, hN⟩).2.2.2.2.2.2.2.2.2.2.2.2.2.2.1
  have q1 : win0_7.index ⟨(i 0).val / 5000, hN⟩ (1 : Fin 2) = 0 := (idx0 ⟨(i 0).val / 5000, hN⟩).2.2.2.2.2.2.2.2.2.2.2.2.2.2.2
  intro a
  match a with
  | ⟨0, _⟩ => show win0_7.index ⟨(i 0).val / 5000, hN⟩ (0 : Fin 2) * 5000 ≤ (i 0).val ∧ (i 0).val < win0_7.index ⟨(i 0).val / 5000, hN⟩ (0 : Fin 2) * 5000 + 5000; rw [q0]; omega
  | ⟨1, _⟩ => show win0_7.index ⟨(i 0).val / 5000, hN⟩ (1 : Fin 2) * 128 ≤ (i 1).val ∧ (i 1).val < win0_7.index ⟨(i 0).val / 5000, hN⟩ (1 : Fin 2) * 128 + 128; rw [q1]; omega

/-- THE OUTPUT ARRAY after launch 0 is that function of the arrays at its entry. -/
theorem final0 (c : Dev nD) : (dat0 V c).arrAt 7 cfg0.N = G0 V c :=
  (dat0 V c).arrAt_eq_of_cover 7 (G0 V c) (fun t _ => flushed0_eq V c t) (cover0)

/-! ## Launch 1 -/

/-- The printed index maps of launch 1, decided over its 20 grid points: a row block moves with the point, every
    other block stays at the origin. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

theorem lt1 (t : Fin cfg1.N) : t.val < 20 := lt_of_lt_of_eq t.isLt N_1

/-- Row p of point t's block of window 0 is row 5000·t + p of its array. -/
theorem read1_0 (c : Dev nD) (t : Fin cfg1.N) (p : Fin 5000) (r : Fin 100000) (hr : r.val = t.val * 5000 + p.val) (k : Fin 128) :
    iblk1 V c 0 t (ix2 p k) = V c main_v28 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v28 (((cfg1.win 0).blk t).view.emb (ix2 p k)) = V c main_v28 (ix2 r k)
  refine congrArg (V c main_v28) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of point t's block of window 1 is row 5000·t + p of its array. -/
theorem read1_1 (c : Dev nD) (t : Fin cfg1.N) (p : Fin 5000) (r : Fin 100000) (hr : r.val = t.val * 5000 + p.val) (k : Fin 128) :
    iblk1 V c 1 t (ix2 p k) = V c main_v16 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v16 (((cfg1.win 1).blk t).view.emb (ix2 p k)) = V c main_v16 (ix2 r k)
  refine congrArg (V c main_v16) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Window 2's block is its whole array at every point. -/
theorem read1_2 (c : Dev nD) (t : Fin cfg1.N) (k : Fin 128) (j : Fin 128) :
    iblk1 V c 2 t (ix2 k j) = V c main_v30 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v30 (((cfg1.win 2).blk t).view.emb (ix2 k j)) = V c main_v30 (ix2 k j)
  refine congrArg (V c main_v30) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- Window 3's block is its whole array at every point. -/
theorem read1_3 (c : Dev nD) (t : Fin cfg1.N) (k : Fin 1) (j : Fin 128) :
    iblk1 V c 3 t (ix2 k j) = V c main_v43 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v43 (((cfg1.win 3).blk t).view.emb (ix2 k j)) = V c main_v43 (ix2 k j)
  refine congrArg (V c main_v43) (funext fun a => Fin.ext ?_)
  match a with
  | ⟨0, _⟩ => show win1_3.index t (0 : Fin 2) * 1 + 1 * k.val = k.val; omega
  | ⟨1, _⟩ => show win1_3.index t (1 : Fin 2) * 128 + 1 * j.val = j.val; omega

/-- Window 4's block is its whole array at every point. -/
theorem read1_4 (c : Dev nD) (t : Fin cfg1.N) (k : Fin 128) (j : Fin 128) :
    iblk1 V c 4 t (ix2 k j) = V c main_v34 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v34 (((cfg1.win 4).blk t).view.emb (ix2 k j)) = V c main_v34 (ix2 k j)
  refine congrArg (V c main_v34) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- Window 5's block is its whole array at every point. -/
theorem read1_5 (c : Dev nD) (t : Fin cfg1.N) (k : Fin 1) (j : Fin 128) :
    iblk1 V c 5 t (ix2 k j) = V c main_v44 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v44 (((cfg1.win 5).blk t).view.emb (ix2 k j)) = V c main_v44 (ix2 k j)
  refine congrArg (V c main_v44) (funext fun a => Fin.ext ?_)
  match a with
  | ⟨0, _⟩ => show win1_5.index t (0 : Fin 2) * 1 + 1 * k.val = k.val; omega
  | ⟨1, _⟩ => show win1_5.index t (1 : Fin 2) * 128 + 1 * j.val = j.val; omega

/-- Window 6's block is its whole array at every point. -/
theorem read1_6 (c : Dev nD) (t : Fin cfg1.N) (k : Fin 1) (j : Fin 128) :
    iblk1 V c 6 t (ix2 k j) = V c main_v45 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v45 (((cfg1.win 6).blk t).view.emb (ix2 k j)) = V c main_v45 (ix2 k j)
  refine congrArg (V c main_v45) (funext fun a => Fin.ext ?_)
  match a with
  | ⟨0, _⟩ => show win1_6.index t (0 : Fin 2) * 1 + 1 * k.val = k.val; omega
  | ⟨1, _⟩ => show win1_6.index t (1 : Fin 2) * 128 + 1 * j.val = j.val; omega

/-- Window 7's block is its whole array at every point. -/
theorem read1_7 (c : Dev nD) (t : Fin cfg1.N) (k : Fin 1) (j : Fin 128) :
    iblk1 V c 7 t (ix2 k j) = V c main_v46 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v46 (((cfg1.win 7).blk t).view.emb (ix2 k j)) = V c main_v46 (ix2 k j)
  refine congrArg (V c main_v46) (funext fun a => Fin.ext ?_)
  match a with
  | ⟨0, _⟩ => show win1_7.index t (0 : Fin 2) * 1 + 1 * k.val = k.val; omega
  | ⟨1, _⟩ => show win1_7.index t (1 : Fin 2) * 128 + 1 * j.val = j.val; omega

/-- Window 8's block is its whole array at every point. -/
theorem read1_8 (c : Dev nD) (t : Fin cfg1.N) (k : Fin 1) (j : Fin 128) :
    iblk1 V c 8 t (ix2 k j) = V c main_v47 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx1 t
  show V c main_v47 (((cfg1.win 8).blk t).view.emb (ix2 k j)) = V c main_v47 (ix2 k j)
  refine congrArg (V c main_v47) (funext fun a => Fin.ext ?_)
  match a with
  | ⟨0, _⟩ => show win1_8.index t (0 : Fin 2) * 1 + 1 * k.val = k.val; omega
  | ⟨1, _⟩ => show win1_8.index t (1 : Fin 2) * 128 + 1 * j.val = j.val; omega

/-- What launch 1 leaves in its output array, as one function of the arrays it finds at its entry: the graph layer
    of the whole arrays, the parameter rows read at their one row. -/
def G1 (c : Dev nD) : S100000x128.Idx → EReal :=
  sageLayer (M := 100000) (K := 128) (V c main_v28) (V c main_v16) (V c main_v30) (V c main_v34) (fun j => V c main_v43 (ix2 (0 : Fin 1) j)) (fun j => V c main_v44 (ix2 (0 : Fin 1) j)) (fun j => V c main_v45 (ix2 (0 : Fin 1) j)) (fun j => V c main_v46 (ix2 (0 : Fin 1) j)) (fun j => V c main_v47 (ix2 (0 : Fin 1) j))

/-- What point t writes back is block t of that function: row p of the block depends on row 5000·t + p of the row
    operands only. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  obtain ⟨e0_0, e0_1, e1_0, e1_1, e2_0, e2_1, e3_0, e3_1, e4_0, e4_1, e5_0, e5_1, e6_0, e6_1, e7_0, e7_1, e8_0, e8_1, e9_0, e9_1⟩ := idx1 t
  funext y
  obtain ⟨p, j, rfl⟩ : ∃ (p : Fin 5000) (j : Fin 128), y = ix2 p j := ⟨y 0, y 1, eq_ix2 y⟩
  have ht := lt1 t
  have hp := p.isLt
  obtain ⟨r, hr⟩ : ∃ r : Fin 100000, r.val = t.val * 5000 + p.val := ⟨⟨t.val * 5000 + p.val, by omega⟩, rfl⟩
  have hemb : ((cfg1.win 9).blk t).view.emb (ix2 p j) = ix2 r j := by
    funext a; apply Fin.ext
    match a with
    | ⟨0, _⟩ => show win1_9.index t (0 : Fin 2) * 5000 + 1 * p.val = r.val; omega
    | ⟨1, _⟩ => show win1_9.index t (1 : Fin 2) * 128 + 1 * j.val = j.val; omega
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 p j) = G1 V c (((cfg1.win 9).blk t).view.emb (ix2 p j))
  rw [hemb]
  refine (out1_9_apply (iblk1 V c 0 t) (iblk1 V c 1 t) (iblk1 V c 2 t) (iblk1 V c 3 t) (iblk1 V c 4 t) (iblk1 V c 5 t) (iblk1 V c 6 t) (iblk1 V c 7 t) (iblk1 V c 8 t) p j).trans ?_
  simp only [read1_0 V c t p r hr, read1_1 V c t p r hr, read1_2 V c t, read1_3 V c t, read1_4 V c t, read1_5 V c t, read1_6 V c t, read1_7 V c t, read1_8 V c t]
  rfl

/-- An index of the output array is in point t's block iff each coordinate is in the block's range on its axis. -/
theorem mem_blk1 (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v48).slice (win1_9.rect t)).set ↔ _
  rw [View.set_slice_whole, Rect.mem_set_unit]
  exact Iff.rfl

/-- The 20 blocks of 5000 rows cover the 100000 rows: row r is in the block of point r / 5000. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_9 _, ?_⟩
  rw [mem_blk1]
  have q0 : win1_9.index ⟨(i 0).val / 5000, hN⟩ (0 : Fin 2) = (i 0).val / 5000 := (idx1 ⟨(i 0).val / 5000, hN⟩).2.2.2.2.2.2.2.2.2.2.2.2.2.2.2.2.2.2.1
  have q1 : win1_9.index ⟨(i 0).val / 5000, hN⟩ (1 : Fin 2) = 0 := (idx1 ⟨(i 0).val / 5000, hN⟩).2.2.2.2.2.2.2.2.2.2.2.2.2.2.2.2.2.2.2
  intro a
  match a with
  | ⟨0, _⟩ => show win1_9.index ⟨(i 0).val / 5000, hN⟩ (0 : Fin 2) * 5000 ≤ (i 0).val ∧ (i 0).val < win1_9.index ⟨(i 0).val / 5000, hN⟩ (0 : Fin 2) * 5000 + 5000; rw [q0]; omega
  | ⟨1, _⟩ => show win1_9.index ⟨(i 0).val / 5000, hN⟩ (1 : Fin 2) * 128 ≤ (i 1).val ∧ (i 1).val < win1_9.index ⟨(i 0).val / 5000, hN⟩ (1 : Fin 2) * 128 + 128; rw [q1]; omega

/-- THE OUTPUT ARRAY after launch 1 is that function of the arrays at its entry. -/
theorem final1 (c : Dev nD) : (dat1 V c).arrAt 9 cfg1.N = G1 V c :=
  (dat1 V c).arrAt_eq_of_cover 9 (G1 V c) (fun t _ => flushed1_eq V c t) (cover1)

/-! ## Launch 2 -/

/-- The printed index maps of launch 2, decided over its 20 grid points: a row block moves with the point, every
    other block stays at the origin. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

theorem lt2 (t : Fin cfg2.N) : t.val < 20 := lt_of_lt_of_eq t.isLt N_2

/-- Row p of point t's block of window 0 is row 5000·t + p of its array. -/
theorem read2_0 (c : Dev nD) (t : Fin cfg2.N) (p : Fin 5000) (r : Fin 100000) (hr : r.val = t.val * 5000 + p.val) (k : Fin 128) :
    iblk2 V c 0 t (ix2 p k) = V c main_v60 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v60 (((cfg2.win 0).blk t).view.emb (ix2 p k)) = V c main_v60 (ix2 r k)
  refine congrArg (V c main_v60) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of point t's block of window 1 is row 5000·t + p of its array. -/
theorem read2_1 (c : Dev nD) (t : Fin cfg2.N) (p : Fin 5000) (r : Fin 100000) (hr : r.val = t.val * 5000 + p.val) (k : Fin 128) :
    iblk2 V c 1 t (ix2 p k) = V c main_v48 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v48 (((cfg2.win 1).blk t).view.emb (ix2 p k)) = V c main_v48 (ix2 r k)
  refine congrArg (V c main_v48) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Window 2's block is its whole array at every point. -/
theorem read2_2 (c : Dev nD) (t : Fin cfg2.N) (k : Fin 128) (j : Fin 128) :
    iblk2 V c 2 t (ix2 k j) = V c main_v62 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v62 (((cfg2.win 2).blk t).view.emb (ix2 k j)) = V c main_v62 (ix2 k j)
  refine congrArg (V c main_v62) (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- Window 3's block is its whole array at every point. -/
theorem read2_3 (c : Dev nD) (t : Fin cfg2.N) (k : Fin 1) (j : Fin 128) :
    iblk2 V c 3 t (ix2 k j) = V c main_v75 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v75 (((cfg2.win 3).blk t).view.emb (ix2 k j)) = V c main_v75 (ix2 k j)
  refine congrArg (V c main_v75) (funext fun a => Fin.ext ?_)
  match a with
  | ⟨0, _⟩ => show win2_3.index t (0 : Fin 2) * 1 + 1 * k.val = k.val; omega
  | ⟨1, _⟩ => show win2_3.index t (1 : Fin 2) * 128 + 1 * j.val = j.val; omega

/-- Window 4's block is its whole array at every point. -/
theorem read2_4 (c : Dev nD) (t : Fin cfg2.N) (k : Fin 128) (j : Fin 128) :
    iblk2 V c 4 t (ix2 k j) = V c main_v66 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v66 (((cfg2.win 4).blk t).view.emb (ix2 k j)) = V c main_v66 (ix2 k j)
  refine congrArg (V c main_v66) (funext fun a => Fin.ext ?_)
  match a with
  | ⟨0, _⟩ => show win2_4.index t (0 : Fin 2) * 128 + 1 * k.val = k.val; omega
  | ⟨1, _⟩ => show win2_4.index t (1 : Fin 2) * 128 + 1 * j.val = j.val; omega

/-- Window 5's block is its whole array at every point. -/
theorem read2_5 (c : Dev nD) (t : Fin cfg2.N) (k : Fin 1) (j : Fin 128) :
    iblk2 V c 5 t (ix2 k j) = V c main_v76 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v76 (((cfg2.win 5).blk t).view.emb (ix2 k j)) = V c main_v76 (ix2 k j)
  refine congrArg (V c main_v76) (funext fun a => Fin.ext ?_)
  match a with
  | ⟨0, _⟩ => show win2_5.index t (0 : Fin 2) * 1 + 1 * k.val = k.val; omega
  | ⟨1, _⟩ => show win2_5.index t (1 : Fin 2) * 128 + 1 * j.val = j.val; omega

/-- Window 6's block is its whole array at every point. -/
theorem read2_6 (c : Dev nD) (t : Fin cfg2.N) (k : Fin 1) (j : Fin 128) :
    iblk2 V c 6 t (ix2 k j) = V c main_v77 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v77 (((cfg2.win 6).blk t).view.emb (ix2 k j)) = V c main_v77 (ix2 k j)
  refine congrArg (V c main_v77) (funext fun a => Fin.ext ?_)
  match a with
  | ⟨0, _⟩ => show win2_6.index t (0 : Fin 2) * 1 + 1 * k.val = k.val; omega
  | ⟨1, _⟩ => show win2_6.index t (1 : Fin 2) * 128 + 1 * j.val = j.val; omega

/-- Window 7's block is its whole array at every point. -/
theorem read2_7 (c : Dev nD) (t : Fin cfg2.N) (k : Fin 1) (j : Fin 128) :
    iblk2 V c 7 t (ix2 k j) = V c main_v78 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v78 (((cfg2.win 7).blk t).view.emb (ix2 k j)) = V c main_v78 (ix2 k j)
  refine congrArg (V c main_v78) (funext fun a => Fin.ext ?_)
  match a with
  | ⟨0, _⟩ => show win2_7.index t (0 : Fin 2) * 1 + 1 * k.val = k.val; omega
  | ⟨1, _⟩ => show win2_7.index t (1 : Fin 2) * 128 + 1 * j.val = j.val; omega

/-- Window 8's block is its whole array at every point. -/
theorem read2_8 (c : Dev nD) (t : Fin cfg2.N) (k : Fin 1) (j : Fin 128) :
    iblk2 V c 8 t (ix2 k j) = V c main_v79 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v79 (((cfg2.win 8).blk t).view.emb (ix2 k j)) = V c main_v79 (ix2 k j)
  refine congrArg (V c main_v79) (funext fun a => Fin.ext ?_)
  match a with
  | ⟨0, _⟩ => show win2_8.index t (0 : Fin 2) * 1 + 1 * k.val = k.val; omega
  | ⟨1, _⟩ => show win2_8.index t (1 : Fin 2) * 128 + 1 * j.val = j.val; omega

/-- What launch 2 leaves in its output array, as one function of the arrays it finds at its entry: the graph layer
    of the whole arrays, the parameter rows read at their one row. -/
def G2 (c : Dev nD) : S100000x128.Idx → EReal :=
  sageLayer (M := 100000) (K := 128) (V c main_v60) (V c main_v48) (V c main_v62) (V c main_v66) (fun j => V c main_v75 (ix2 (0 : Fin 1) j)) (fun j => V c main_v76 (ix2 (0 : Fin 1) j)) (fun j => V c main_v77 (ix2 (0 : Fin 1) j)) (fun j => V c main_v78 (ix2 (0 : Fin 1) j)) (fun j => V c main_v79 (ix2 (0 : Fin 1) j))

/-- What point t writes back is block t of that function: row p of the block depends on row 5000·t + p of the row
    operands only. -/
theorem flushed2_eq (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  obtain ⟨e0_0, e0_1, e1_0, e1_1, e2_0, e2_1, e3_0, e3_1, e4_0, e4_1, e5_0, e5_1, e6_0, e6_1, e7_0, e7_1, e8_0, e8_1, e9_0, e9_1⟩ := idx2 t
  funext y
  obtain ⟨p, j, rfl⟩ : ∃ (p : Fin 5000) (j : Fin 128), y = ix2 p j := ⟨y 0, y 1, eq_ix2 y⟩
  have ht := lt2 t
  have hp := p.isLt
  obtain ⟨r, hr⟩ : ∃ r : Fin 100000, r.val = t.val * 5000 + p.val := ⟨⟨t.val * 5000 + p.val, by omega⟩, rfl⟩
  have hemb : ((cfg2.win 9).blk t).view.emb (ix2 p j) = ix2 r j := by
    funext a; apply Fin.ext
    match a with
    | ⟨0, _⟩ => show win2_9.index t (0 : Fin 2) * 5000 + 1 * p.val = r.val; omega
    | ⟨1, _⟩ => show win2_9.index t (1 : Fin 2) * 128 + 1 * j.val = j.val; omega
  show out2_9 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (ix2 p j) = G2 V c (((cfg2.win 9).blk t).view.emb (ix2 p j))
  rw [hemb]
  refine (out2_9_apply (iblk2 V c 0 t) (iblk2 V c 1 t) (iblk2 V c 2 t) (iblk2 V c 3 t) (iblk2 V c 4 t) (iblk2 V c 5 t) (iblk2 V c 6 t) (iblk2 V c 7 t) (iblk2 V c 8 t) p j).trans ?_
  simp only [read2_0 V c t p r hr, read2_1 V c t p r hr, read2_2 V c t, read2_3 V c t, read2_4 V c t, read2_5 V c t, read2_6 V c t, read2_7 V c t, read2_8 V c t]
  rfl

/-- An index of the output array is in point t's block iff each coordinate is in the block's range on its axis. -/
theorem mem_blk2 (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v80).slice (win2_9.rect t)).set ↔ _
  rw [View.set_slice_whole, Rect.mem_set_unit]
  exact Iff.rfl

/-- The 20 blocks of 5000 rows cover the 100000 rows: row r is in the block of point r / 5000. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  refine ⟨⟨(i 0).val / 5000, hN⟩, flush2_9 _, ?_⟩
  rw [mem_blk2]
  have q0 : win2_9.index ⟨(i 0).val / 5000, hN⟩ (0 : Fin 2) = (i 0).val / 5000 := (idx2 ⟨(i 0).val / 5000, hN⟩).2.2.2.2.2.2.2.2.2.2.2.2.2.2.2.2.2.2.1
  have q1 : win2_9.index ⟨(i 0).val / 5000, hN⟩ (1 : Fin 2) = 0 := (idx2 ⟨(i 0).val / 5000, hN⟩).2.2.2.2.2.2.2.2.2.2.2.2.2.2.2.2.2.2.2
  intro a
  match a with
  | ⟨0, _⟩ => show win2_9.index ⟨(i 0).val / 5000, hN⟩ (0 : Fin 2) * 5000 ≤ (i 0).val ∧ (i 0).val < win2_9.index ⟨(i 0).val / 5000, hN⟩ (0 : Fin 2) * 5000 + 5000; rw [q0]; omega
  | ⟨1, _⟩ => show win2_9.index ⟨(i 0).val / 5000, hN⟩ (1 : Fin 2) * 128 ≤ (i 1).val ∧ (i 1).val < win2_9.index ⟨(i 0).val / 5000, hN⟩ (1 : Fin 2) * 128 + 128; rw [q1]; omega

/-- THE OUTPUT ARRAY after launch 2 is that function of the arrays at its entry. -/
theorem final2 (c : Dev nD) : (dat2 V c).arrAt 9 cfg2.N = G2 V c :=
  (dat2 V c).arrAt_eq_of_cover 9 (G2 V c) (fun t _ => flushed2_eq V c t) (cover2)

/-! ## Launch 3 -/

/-- The printed index maps of launch 3, decided over its 20 grid points: a row block moves with the point, every
    other block stays at the origin. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

theorem lt3 (t : Fin cfg3.N) : t.val < 20 := lt_of_lt_of_eq t.isLt N_3

/-- Row p of point t's block of window 0 is row 5000·t + p of its array. -/
theorem read3_0 (c : Dev nD) (t : Fin cfg3.N) (p : Fin 5000) (r : Fin 100000) (hr : r.val = t.val * 5000 + p.val) (k : Fin 128) :
    iblk3 V c 0 t (ix2 p k) = V c main_v92 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v92 (((cfg3.win 0).blk t).view.emb (ix2 p k)) = V c main_v92 (ix2 r k)
  refine congrArg (V c main_v92) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Row p of point t's block of window 1 is row 5000·t + p of its array. -/
theorem read3_1 (c : Dev nD) (t : Fin cfg3.N) (p : Fin 5000) (r : Fin 100000) (hr : r.val = t.val * 5000 + p.val) (k : Fin 128) :
    iblk3 V c 1 t (ix2 p k) = V c main_v80 (ix2 r k) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v80 (((cfg3.win 1).blk t).view.emb (ix2 p k)) = V c main_v80 (ix2 r k)
  refine congrArg (V c main_v80) (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- Window 2's block is its whole array at every point. -/
theorem read3_2 (c : Dev nD) (t : Fin cfg3.N) (k : Fin 128) (j : Fin 128) :
    iblk3 V c 2 t (ix2 k j) = V c main_v94 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v94 (((cfg3.win 2).blk t).view.emb (ix2 k j)) = V c main_v94 (ix2 k j)
  refine congrArg (V c main_v94) (funext fun a => Fin.ext ?_)
  match a with
  | ⟨0, _⟩ => show win3_2.index t (0 : Fin 2) * 128 + 1 * k.val = k.val; omega
  | ⟨1, _⟩ => show win3_2.index t (1 : Fin 2) * 128 + 1 * j.val = j.val; omega

/-- Window 3's block is its whole array at every point. -/
theorem read3_3 (c : Dev nD) (t : Fin cfg3.N) (k : Fin 1) (j : Fin 128) :
    iblk3 V c 3 t (ix2 k j) = V c main_v107 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v107 (((cfg3.win 3).blk t).view.emb (ix2 k j)) = V c main_v107 (ix2 k j)
  refine congrArg (V c main_v107) (funext fun a => Fin.ext ?_)
  match a with
  | ⟨0, _⟩ => show win3_3.index t (0 : Fin 2) * 1 + 1 * k.val = k.val; omega
  | ⟨1, _⟩ => show win3_3.index t (1 : Fin 2) * 128 + 1 * j.val = j.val; omega

/-- Window 4's block is its whole array at every point. -/
theorem read3_4 (c : Dev nD) (t : Fin cfg3.N) (k : Fin 128) (j : Fin 128) :
    iblk3 V c 4 t (ix2 k j) = V c main_v98 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v98 (((cfg3.win 4).blk t).view.emb (ix2 k j)) = V c main_v98 (ix2 k j)
  refine congrArg (V c main_v98) (funext fun a => Fin.ext ?_)
  match a with
  | ⟨0, _⟩ => show win3_4.index t (0 : Fin 2) * 128 + 1 * k.val = k.val; omega
  | ⟨1, _⟩ => show win3_4.index t (1 : Fin 2) * 128 + 1 * j.val = j.val; omega

/-- Window 5's block is its whole array at every point. -/
theorem read3_5 (c : Dev nD) (t : Fin cfg3.N) (k : Fin 1) (j : Fin 128) :
    iblk3 V c 5 t (ix2 k j) = V c main_v108 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v108 (((cfg3.win 5).blk t).view.emb (ix2 k j)) = V c main_v108 (ix2 k j)
  refine congrArg (V c main_v108) (funext fun a => Fin.ext ?_)
  match a with
  | ⟨0, _⟩ => show win3_5.index t (0 : Fin 2) * 1 + 1 * k.val = k.val; omega
  | ⟨1, _⟩ => show win3_5.index t (1 : Fin 2) * 128 + 1 * j.val = j.val; omega

/-- Window 6's block is its whole array at every point. -/
theorem read3_6 (c : Dev nD) (t : Fin cfg3.N) (k : Fin 1) (j : Fin 128) :
    iblk3 V c 6 t (ix2 k j) = V c main_v109 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v109 (((cfg3.win 6).blk t).view.emb (ix2 k j)) = V c main_v109 (ix2 k j)
  refine congrArg (V c main_v109) (funext fun a => Fin.ext ?_)
  match a with
  | ⟨0, _⟩ => show win3_6.index t (0 : Fin 2) * 1 + 1 * k.val = k.val; omega
  | ⟨1, _⟩ => show win3_6.index t (1 : Fin 2) * 128 + 1 * j.val = j.val; omega

/-- Window 7's block is its whole array at every point. -/
theorem read3_7 (c : Dev nD) (t : Fin cfg3.N) (k : Fin 1) (j : Fin 128) :
    iblk3 V c 7 t (ix2 k j) = V c main_v110 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v110 (((cfg3.win 7).blk t).view.emb (ix2 k j)) = V c main_v110 (ix2 k j)
  refine congrArg (V c main_v110) (funext fun a => Fin.ext ?_)
  match a with
  | ⟨0, _⟩ => show win3_7.index t (0 : Fin 2) * 1 + 1 * k.val = k.val; omega
  | ⟨1, _⟩ => show win3_7.index t (1 : Fin 2) * 128 + 1 * j.val = j.val; omega

/-- Window 8's block is its whole array at every point. -/
theorem read3_8 (c : Dev nD) (t : Fin cfg3.N) (k : Fin 1) (j : Fin 128) :
    iblk3 V c 8 t (ix2 k j) = V c main_v111 (ix2 k j) := by
  obtain ⟨e0_0, e0_1, e1_0, e1_1, e2_0, e2_1, e3_0, e3_1, e4_0, e4_1, e5_0, e5_1, e6_0, e6_1, e7_0, e7_1, e8_0, e8_1, e9_0, e9_1⟩ := idx3 t
  show V c main_v111 (((cfg3.win 8).blk t).view.emb (ix2 k j)) = V c main_v111 (ix2 k j)
  refine congrArg (V c main_v111) (funext fun a => Fin.ext ?_)
  match a with
  | ⟨0, _⟩ => show win3_8.index t (0 : Fin 2) * 1 + 1 * k.val = k.val; omega
  | ⟨1, _⟩ => show win3_8.index t (1 : Fin 2) * 128 + 1 * j.val = j.val; omega

/-- What launch 3 leaves in its output array, as one function of the arrays it finds at its entry: the graph layer
    of the whole arrays, the parameter rows read at their one row. -/
def G3 (c : Dev nD) : S100000x128.Idx → EReal :=
  sageLayer (M := 100000) (K := 128) (V c main_v92) (V c main_v80) (V c main_v94) (V c main_v98) (fun j => V c main_v107 (ix2 (0 : Fin 1) j)) (fun j => V c main_v108 (ix2 (0 : Fin 1) j)) (fun j => V c main_v109 (ix2 (0 : Fin 1) j)) (fun j => V c main_v110 (ix2 (0 : Fin 1) j)) (fun j => V c main_v111 (ix2 (0 : Fin 1) j))

/-- What point t writes back is block t of that function: row p of the block depends on row 5000·t + p of the row
    operands only. -/
theorem flushed3_eq (c : Dev nD) (t : Fin cfg3.N) :
    (dat3 V c).flushed 9 t = ((cfg3.win 9).blk t).view.read (Elt Ideal) (G3 V c) := by
  show (cfg3.win 9).cut (grid3.coords t) ((dat3 V c).after 9 t) = _
  rw [after3_9]
  obtain ⟨e0_0, e0_1, e1_0, e1_1, e2_0, e2_1, e3_0, e3_1, e4_0, e4_1, e5_0, e5_1, e6_0, e6_1, e7_0, e7_1, e8_0, e8_1, e9_0, e9_1⟩ := idx3 t
  funext y
  obtain ⟨p, j, rfl⟩ : ∃ (p : Fin 5000) (j : Fin 128), y = ix2 p j := ⟨y 0, y 1, eq_ix2 y⟩
  have ht := lt3 t
  have hp := p.isLt
  obtain ⟨r, hr⟩ : ∃ r : Fin 100000, r.val = t.val * 5000 + p.val := ⟨⟨t.val * 5000 + p.val, by omega⟩, rfl⟩
  have hemb : ((cfg3.win 9).blk t).view.emb (ix2 p j) = ix2 r j := by
    funext a; apply Fin.ext
    match a with
    | ⟨0, _⟩ => show win3_9.index t (0 : Fin 2) * 5000 + 1 * p.val = r.val; omega
    | ⟨1, _⟩ => show win3_9.index t (1 : Fin 2) * 128 + 1 * j.val = j.val; omega
  show out3_9 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (ix2 p j) = G3 V c (((cfg3.win 9).blk t).view.emb (ix2 p j))
  rw [hemb]
  refine (out3_9_apply (iblk3 V c 0 t) (iblk3 V c 1 t) (iblk3 V c 2 t) (iblk3 V c 3 t) (iblk3 V c 4 t) (iblk3 V c 5 t) (iblk3 V c 6 t) (iblk3 V c 7 t) (iblk3 V c 8 t) p j).trans ?_
  simp only [read3_0 V c t p r hr, read3_1 V c t p r hr, read3_2 V c t, read3_3 V c t, read3_4 V c t, read3_5 V c t, read3_6 V c t, read3_7 V c t, read3_8 V c t]
  rfl

/-- An index of the output array is in point t's block iff each coordinate is in the block's range on its axis. -/
theorem mem_blk3 (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v112).slice (win3_9.rect t)).set ↔ _
  rw [View.set_slice_whole, Rect.mem_set_unit]
  exact Iff.rfl

/-- The 20 blocks of 5000 rows cover the 100000 rows: row r is in the block of point r / 5000. -/
theorem cover3 (i : S100000x128.Idx) :
    ∃ t : Fin cfg3.N, (cfg3.win 9).flush t = true ∧ i ∈ ((cfg3.win 9).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  refine ⟨⟨(i 0).val / 5000, hN⟩, flush3_9 _, ?_⟩
  rw [mem_blk3]
  have q0 : win3_9.index ⟨(i 0).val / 5000, hN⟩ (0 : Fin 2) = (i 0).val / 5000 := (idx3 ⟨(i 0).val / 5000, hN⟩).2.2.2.2.2.2.2.2.2.2.2.2.2.2.2.2.2.2.1
  have q1 : win3_9.index ⟨(i 0).val / 5000, hN⟩ (1 : Fin 2) = 0 := (idx3 ⟨(i 0).val / 5000, hN⟩).2.2.2.2.2.2.2.2.2.2.2.2.2.2.2.2.2.2.2
  intro a
  match a with
  | ⟨0, _⟩ => show win3_9.index ⟨(i 0).val / 5000, hN⟩ (0 : Fin 2) * 5000 ≤ (i 0).val ∧ (i 0).val < win3_9.index ⟨(i 0).val / 5000, hN⟩ (0 : Fin 2) * 5000 + 5000; rw [q0]; omega
  | ⟨1, _⟩ => show win3_9.index ⟨(i 0).val / 5000, hN⟩ (1 : Fin 2) * 128 ≤ (i 1).val ∧ (i 1).val < win3_9.index ⟨(i 0).val / 5000, hN⟩ (1 : Fin 2) * 128 + 128; rw [q1]; omega

/-- THE OUTPUT ARRAY after launch 3 is that function of the arrays at its entry. -/
theorem final3 (c : Dev nD) : (dat3 V c).arrAt 9 cfg3.N = G3 V c :=
  (dat3 V c).arrAt_eq_of_cover 9 (G3 V c) (fun t _ => flushed3_eq V c t) (cover3)

end Cert.KernelIdeal.Arrays

end
-- ==== Proof.KernelStages.lean ====
/-
  The contents the launches find: what each stretch of host operations hands to the launch after it.

  The buffer contents at the boundaries of @main's segments are a fold from the launch memory. Read at the buffers
  a launch takes, the fold gives: the edge list's two rows, the clamped in-degree and the stacked parameters as
  launched, whatever stretch reads them (no launch and no later operation writes them); each layer's slices of
  the parameters; and the mean aggregation of the features the previous launch left. They are stated with the
  reference's own stage functions, so that the two programs' values meet term for term.
-/
import proofs.«128997_j62517543961152_1_alg».proof.Proof.Gen.KernelIdeal.Frame
import proofs.«128997_j62517543961152_1_alg».proof.Proof.RefValue
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What persists: the edge rows, the in-degree and the stacked parameters, at every boundary -/

theorem at1_main_v1 : W1 m ρ c (Proc.devRef .tc main_v1) = (Cert.ReferenceIdeal.Read.val_main_v1 (F := Ideal) (m ((c.tc : Thread nD τ).loc main_arg1))) := by
  show StableHlo.after hostOps0 (W0 m ρ c) (Proc.devRef .tc main_v1) = _
  after_results_simp
  try rfl
theorem at2_main_v1 : W2 m ρ c (Proc.devRef .tc main_v1) = (Cert.ReferenceIdeal.Read.val_main_v1 (F := Ideal) (m ((c.tc : Thread nD τ).loc main_arg1))) :=
  (W2_of_ne m ρ c main_v1 (by decide)).trans (at1_main_v1 m ρ c)
theorem at3_main_v1 : W3 m ρ c (Proc.devRef .tc main_v1) = (Cert.ReferenceIdeal.Read.val_main_v1 (F := Ideal) (m ((c.tc : Thread nD τ).loc main_arg1))) := by
  show StableHlo.after hostOps1 (W2 m ρ c) (Proc.devRef .tc main_v1) = _
  after_results_simp
  exact at2_main_v1 m ρ c
theorem at4_main_v1 : W4 m ρ c (Proc.devRef .tc main_v1) = (Cert.ReferenceIdeal.Read.val_main_v1 (F := Ideal) (m ((c.tc : Thread nD τ).loc main_arg1))) :=
  (W4_of_ne m ρ c main_v1 (by decide)).trans (at3_main_v1 m ρ c)
theorem at5_main_v1 : W5 m ρ c (Proc.devRef .tc main_v1) = (Cert.ReferenceIdeal.Read.val_main_v1 (F := Ideal) (m ((c.tc : Thread nD τ).loc main_arg1))) := by
  show StableHlo.after hostOps2 (W4 m ρ c) (Proc.devRef .tc main_v1) = _
  after_results_simp
  exact at4_main_v1 m ρ c
theorem at6_main_v1 : W6 m ρ c (Proc.devRef .tc main_v1) = (Cert.ReferenceIdeal.Read.val_main_v1 (F := Ideal) (m ((c.tc : Thread nD τ).loc main_arg1))) :=
  (W6_of_ne m ρ c main_v1 (by decide)).trans (at5_main_v1 m ρ c)

theorem at1_main_v3 : W1 m ρ c (Proc.devRef .tc main_v3) = (Cert.ReferenceIdeal.Read.val_main_v3 (F := Ideal) (m ((c.tc : Thread nD τ).loc main_arg1))) := by
  show StableHlo.after hostOps0 (W0 m ρ c) (Proc.devRef .tc main_v3) = _
  after_results_simp
  try rfl
theorem at2_main_v3 : W2 m ρ c (Proc.devRef .tc main_v3) = (Cert.ReferenceIdeal.Read.val_main_v3 (F := Ideal) (m ((c.tc : Thread nD τ).loc main_arg1))) :=
  (W2_of_ne m ρ c main_v3 (by decide)).trans (at1_main_v3 m ρ c)
theorem at3_main_v3 : W3 m ρ c (Proc.devRef .tc main_v3) = (Cert.ReferenceIdeal.Read.val_main_v3 (F := Ideal) (m ((c.tc : Thread nD τ).loc main_arg1))) := by
  show StableHlo.after hostOps1 (W2 m ρ c) (Proc.devRef .tc main_v3) = _
  after_results_simp
  exact at2_main_v3 m ρ c
theorem at4_main_v3 : W4 m ρ c (Proc.devRef .tc main_v3) = (Cert.ReferenceIdeal.Read.val_main_v3 (F := Ideal) (m ((c.tc : Thread nD τ).loc main_arg1))) :=
  (W4_of_ne m ρ c main_v3 (by decide)).trans (at3_main_v3 m ρ c)
theorem at5_main_v3 : W5 m ρ c (Proc.devRef .tc main_v3) = (Cert.ReferenceIdeal.Read.val_main_v3 (F := Ideal) (m ((c.tc : Thread nD τ).loc main_arg1))) := by
  show StableHlo.after hostOps2 (W4 m ρ c) (Proc.devRef .tc main_v3) = _
  after_results_simp
  exact at4_main_v3 m ρ c
theorem at6_main_v3 : W6 m ρ c (Proc.devRef .tc main_v3) = (Cert.ReferenceIdeal.Read.val_main_v3 (F := Ideal) (m ((c.tc : Thread nD τ).loc main_arg1))) :=
  (W6_of_ne m ρ c main_v3 (by decide)).trans (at5_main_v3 m ρ c)

theorem at1_main_v10 : W1 m ρ c (Proc.devRef .tc main_v10) = (Cert.ReferenceIdeal.Read.val_main_v10 (F := Ideal) (m ((c.tc : Thread nD τ).loc main_arg1))) := by
  show StableHlo.after hostOps0 (W0 m ρ c) (Proc.devRef .tc main_v10) = _
  after_results_simp
  try rfl
theorem at2_main_v10 : W2 m ρ c (Proc.devRef .tc main_v10) = (Cert.ReferenceIdeal.Read.val_main_v10 (F := Ideal) (m ((c.tc : Thread nD τ).loc main_arg1))) :=
  (W2_of_ne m ρ c main_v10 (by decide)).trans (at1_main_v10 m ρ c)
theorem at3_main_v10 : W3 m ρ c (Proc.devRef .tc main_v10) = (Cert.ReferenceIdeal.Read.val_main_v10 (F := Ideal) (m ((c.tc : Thread nD τ).loc main_arg1))) := by
  show StableHlo.after hostOps1 (W2 m ρ c) (Proc.devRef .tc main_v10) = _
  after_results_simp
  exact at2_main_v10 m ρ c
theorem at4_main_v10 : W4 m ρ c (Proc.devRef .tc main_v10) = (Cert.ReferenceIdeal.Read.val_main_v10 (F := Ideal) (m ((c.tc : Thread nD τ).loc main_arg1))) :=
  (W4_of_ne m ρ c main_v10 (by decide)).trans (at3_main_v10 m ρ c)
theorem at5_main_v10 : W5 m ρ c (Proc.devRef .tc main_v10) = (Cert.ReferenceIdeal.Read.val_main_v10 (F := Ideal) (m ((c.tc : Thread nD τ).loc main_arg1))) := by
  show StableHlo.after hostOps2 (W4 m ρ c) (Proc.devRef .tc main_v10) = _
  after_results_simp
  exact at4_main_v10 m ρ c
theorem at6_main_v10 : W6 m ρ c (Proc.devRef .tc main_v10) = (Cert.ReferenceIdeal.Read.val_main_v10 (F := Ideal) (m ((c.tc : Thread nD τ).loc main_arg1))) :=
  (W6_of_ne m ρ c main_v10 (by decide)).trans (at5_main_v10 m ρ c)

theorem at1_main_arg8 : W1 m ρ c (Proc.devRef .tc main_arg8) = (m ((c.tc : Thread nD τ).loc main_arg8)) := by
  show StableHlo.after hostOps0 (W0 m ρ c) (Proc.devRef .tc main_arg8) = _
  after_results_simp
  try rfl
theorem at2_main_arg8 : W2 m ρ c (Proc.devRef .tc main_arg8) = (m ((c.tc : Thread nD τ).loc main_arg8)) :=
  (W2_of_ne m ρ c main_arg8 (by decide)).trans (at1_main_arg8 m ρ c)
theorem at3_main_arg8 : W3 m ρ c (Proc.devRef .tc main_arg8) = (m ((c.tc : Thread nD τ).loc main_arg8)) := by
  show StableHlo.after hostOps1 (W2 m ρ c) (Proc.devRef .tc main_arg8) = _
  after_results_simp
  exact at2_main_arg8 m ρ c
theorem at4_main_arg8 : W4 m ρ c (Proc.devRef .tc main_arg8) = (m ((c.tc : Thread nD τ).loc main_arg8)) :=
  (W4_of_ne m ρ c main_arg8 (by decide)).trans (at3_main_arg8 m ρ c)
theorem at5_main_arg8 : W5 m ρ c (Proc.devRef .tc main_arg8) = (m ((c.tc : Thread nD τ).loc main_arg8)) := by
  show StableHlo.after hostOps2 (W4 m ρ c) (Proc.devRef .tc main_arg8) = _
  after_results_simp
  exact at4_main_arg8 m ρ c
theorem at6_main_arg8 : W6 m ρ c (Proc.devRef .tc main_arg8) = (m ((c.tc : Thread nD τ).loc main_arg8)) :=
  (W6_of_ne m ρ c main_arg8 (by decide)).trans (at5_main_arg8 m ρ c)

theorem at1_main_arg9 : W1 m ρ c (Proc.devRef .tc main_arg9) = (m ((c.tc : Thread nD τ).loc main_arg9)) := by
  show StableHlo.after hostOps0 (W0 m ρ c) (Proc.devRef .tc main_arg9) = _
  after_results_simp
  try rfl
theorem at2_main_arg9 : W2 m ρ c (Proc.devRef .tc main_arg9) = (m ((c.tc : Thread nD τ).loc main_arg9)) :=
  (W2_of_ne m ρ c main_arg9 (by decide)).trans (at1_main_arg9 m ρ c)
theorem at3_main_arg9 : W3 m ρ c (Proc.devRef .tc main_arg9) = (m ((c.tc : Thread nD τ).loc main_arg9)) := by
  show StableHlo.after hostOps1 (W2 m ρ c) (Proc.devRef .tc main_arg9) = _
  after_results_simp
  exact at2_main_arg9 m ρ c
theorem at4_main_arg9 : W4 m ρ c (Proc.devRef .tc main_arg9) = (m ((c.tc : Thread nD τ).loc main_arg9)) :=
  (W4_of_ne m ρ c main_arg9 (by decide)).trans (at3_main_arg9 m ρ c)
theorem at5_main_arg9 : W5 m ρ c (Proc.devRef .tc main_arg9) = (m ((c.tc : Thread nD τ).loc main_arg9)) := by
  show StableHlo.after hostOps2 (W4 m ρ c) (Proc.devRef .tc main_arg9) = _
  after_results_simp
  exact at4_main_arg9 m ρ c
theorem at6_main_arg9 : W6 m ρ c (Proc.devRef .tc main_arg9) = (m ((c.tc : Thread nD τ).loc main_arg9)) :=
  (W6_of_ne m ρ c main_arg9 (by decide)).trans (at5_main_arg9 m ρ c)

theorem at1_main_arg10 : W1 m ρ c (Proc.devRef .tc main_arg10) = (m ((c.tc : Thread nD τ).loc main_arg10)) := by
  show StableHlo.after hostOps0 (W0 m ρ c) (Proc.devRef .tc main_arg10) = _
  after_results_simp
  try rfl
theorem at2_main_arg10 : W2 m ρ c (Proc.devRef .tc main_arg10) = (m ((c.tc : Thread nD τ).loc main_arg10)) :=
  (W2_of_ne m ρ c main_arg10 (by decide)).trans (at1_main_arg10 m ρ c)
theorem at3_main_arg10 : W3 m ρ c (Proc.devRef .tc main_arg10) = (m ((c.tc : Thread nD τ).loc main_arg10)) := by
  show StableHlo.after hostOps1 (W2 m ρ c) (Proc.devRef .tc main_arg10) = _
  after_results_simp
  exact at2_main_arg10 m ρ c
theorem at4_main_arg10 : W4 m ρ c (Proc.devRef .tc main_arg10) = (m ((c.tc : Thread nD τ).loc main_arg10)) :=
  (W4_of_ne m ρ c main_arg10 (by decide)).trans (at3_main_arg10 m ρ c)
theorem at5_main_arg10 : W5 m ρ c (Proc.devRef .tc main_arg10) = (m ((c.tc : Thread nD τ).loc main_arg10)) := by
  show StableHlo.after hostOps2 (W4 m ρ c) (Proc.devRef .tc main_arg10) = _
  after_results_simp
  exact at4_main_arg10 m ρ c
theorem at6_main_arg10 : W6 m ρ c (Proc.devRef .tc main_arg10) = (m ((c.tc : Thread nD τ).loc main_arg10)) :=
  (W6_of_ne m ρ c main_arg10 (by decide)).trans (at5_main_arg10 m ρ c)

theorem at1_main_arg11 : W1 m ρ c (Proc.devRef .tc main_arg11) = (m ((c.tc : Thread nD τ).loc main_arg11)) := by
  show StableHlo.after hostOps0 (W0 m ρ c) (Proc.devRef .tc main_arg11) = _
  after_results_simp
  try rfl
theorem at2_main_arg11 : W2 m ρ c (Proc.devRef .tc main_arg11) = (m ((c.tc : Thread nD τ).loc main_arg11)) :=
  (W2_of_ne m ρ c main_arg11 (by decide)).trans (at1_main_arg11 m ρ c)
theorem at3_main_arg11 : W3 m ρ c (Proc.devRef .tc main_arg11) = (m ((c.tc : Thread nD τ).loc main_arg11)) := by
  show StableHlo.after hostOps1 (W2 m ρ c) (Proc.devRef .tc main_arg11) = _
  after_results_simp
  exact at2_main_arg11 m ρ c
theorem at4_main_arg11 : W4 m ρ c (Proc.devRef .tc main_arg11) = (m ((c.tc : Thread nD τ).loc main_arg11)) :=
  (W4_of_ne m ρ c main_arg11 (by decide)).trans (at3_main_arg11 m ρ c)
theorem at5_main_arg11 : W5 m ρ c (Proc.devRef .tc main_arg11) = (m ((c.tc : Thread nD τ).loc main_arg11)) := by
  show StableHlo.after hostOps2 (W4 m ρ c) (Proc.devRef .tc main_arg11) = _
  after_results_simp
  exact at4_main_arg11 m ρ c
theorem at6_main_arg11 : W6 m ρ c (Proc.devRef .tc main_arg11) = (m ((c.tc : Thread nD τ).loc main_arg11)) :=
  (W6_of_ne m ρ c main_arg11 (by decide)).trans (at5_main_arg11 m ρ c)

theorem at1_main_arg12 : W1 m ρ c (Proc.devRef .tc main_arg12) = (m ((c.tc : Thread nD τ).loc main_arg12)) := by
  show StableHlo.after hostOps0 (W0 m ρ c) (Proc.devRef .tc main_arg12) = _
  after_results_simp
  try rfl
theorem at2_main_arg12 : W2 m ρ c (Proc.devRef .tc main_arg12) = (m ((c.tc : Thread nD τ).loc main_arg12)) :=
  (W2_of_ne m ρ c main_arg12 (by decide)).trans (at1_main_arg12 m ρ c)
theorem at3_main_arg12 : W3 m ρ c (Proc.devRef .tc main_arg12) = (m ((c.tc : Thread nD τ).loc main_arg12)) := by
  show StableHlo.after hostOps1 (W2 m ρ c) (Proc.devRef .tc main_arg12) = _
  after_results_simp
  exact at2_main_arg12 m ρ c
theorem at4_main_arg12 : W4 m ρ c (Proc.devRef .tc main_arg12) = (m ((c.tc : Thread nD τ).loc main_arg12)) :=
  (W4_of_ne m ρ c main_arg12 (by decide)).trans (at3_main_arg12 m ρ c)
theorem at5_main_arg12 : W5 m ρ c (Proc.devRef .tc main_arg12) = (m ((c.tc : Thread nD τ).loc main_arg12)) := by
  show StableHlo.after hostOps2 (W4 m ρ c) (Proc.devRef .tc main_arg12) = _
  after_results_simp
  exact at4_main_arg12 m ρ c
theorem at6_main_arg12 : W6 m ρ c (Proc.devRef .tc main_arg12) = (m ((c.tc : Thread nD τ).loc main_arg12)) :=
  (W6_of_ne m ρ c main_arg12 (by decide)).trans (at5_main_arg12 m ρ c)

theorem at1_main_arg13 : W1 m ρ c (Proc.devRef .tc main_arg13) = (m ((c.tc : Thread nD τ).loc main_arg13)) := by
  show StableHlo.after hostOps0 (W0 m ρ c) (Proc.devRef .tc main_arg13) = _
  after_results_simp
  try rfl
theorem at2_main_arg13 : W2 m ρ c (Proc.devRef .tc main_arg13) = (m ((c.tc : Thread nD τ).loc main_arg13)) :=
  (W2_of_ne m ρ c main_arg13 (by decide)).trans (at1_main_arg13 m ρ c)
theorem at3_main_arg13 : W3 m ρ c (Proc.devRef .tc main_arg13) = (m ((c.tc : Thread nD τ).loc main_arg13)) := by
  show StableHlo.after hostOps1 (W2 m ρ c) (Proc.devRef .tc main_arg13) = _
  after_results_simp
  exact at2_main_arg13 m ρ c
theorem at4_main_arg13 : W4 m ρ c (Proc.devRef .tc main_arg13) = (m ((c.tc : Thread nD τ).loc main_arg13)) :=
  (W4_of_ne m ρ c main_arg13 (by decide)).trans (at3_main_arg13 m ρ c)
theorem at5_main_arg13 : W5 m ρ c (Proc.devRef .tc main_arg13) = (m ((c.tc : Thread nD τ).loc main_arg13)) := by
  show StableHlo.after hostOps2 (W4 m ρ c) (Proc.devRef .tc main_arg13) = _
  after_results_simp
  exact at4_main_arg13 m ρ c
theorem at6_main_arg13 : W6 m ρ c (Proc.devRef .tc main_arg13) = (m ((c.tc : Thread nD τ).loc main_arg13)) :=
  (W6_of_ne m ρ c main_arg13 (by decide)).trans (at5_main_arg13 m ρ c)

theorem at1_main_arg14 : W1 m ρ c (Proc.devRef .tc main_arg14) = (m ((c.tc : Thread nD τ).loc main_arg14)) := by
  show StableHlo.after hostOps0 (W0 m ρ c) (Proc.devRef .tc main_arg14) = _
  after_results_simp
  try rfl
theorem at2_main_arg14 : W2 m ρ c (Proc.devRef .tc main_arg14) = (m ((c.tc : Thread nD τ).loc main_arg14)) :=
  (W2_of_ne m ρ c main_arg14 (by decide)).trans (at1_main_arg14 m ρ c)
theorem at3_main_arg14 : W3 m ρ c (Proc.devRef .tc main_arg14) = (m ((c.tc : Thread nD τ).loc main_arg14)) := by
  show StableHlo.after hostOps1 (W2 m ρ c) (Proc.devRef .tc main_arg14) = _
  after_results_simp
  exact at2_main_arg14 m ρ c
theorem at4_main_arg14 : W4 m ρ c (Proc.devRef .tc main_arg14) = (m ((c.tc : Thread nD τ).loc main_arg14)) :=
  (W4_of_ne m ρ c main_arg14 (by decide)).trans (at3_main_arg14 m ρ c)
theorem at5_main_arg14 : W5 m ρ c (Proc.devRef .tc main_arg14) = (m ((c.tc : Thread nD τ).loc main_arg14)) := by
  show StableHlo.after hostOps2 (W4 m ρ c) (Proc.devRef .tc main_arg14) = _
  after_results_simp
  exact at4_main_arg14 m ρ c
theorem at6_main_arg14 : W6 m ρ c (Proc.devRef .tc main_arg14) = (m ((c.tc : Thread nD τ).loc main_arg14)) :=
  (W6_of_ne m ρ c main_arg14 (by decide)).trans (at5_main_arg14 m ρ c)

/-! ## What launch 0 finds: the arguments, the five parameter vectors each as one row -/

theorem entry0_x : V1 m ρ c main_arg0 = (m ((c.tc : Thread nD τ).loc main_arg0)) := by
  show StableHlo.after hostOps0 (W0 m ρ c) (Proc.devRef .tc main_arg0) = _
  after_results_simp
  try rfl
theorem entry0_w : V1 m ρ c main_arg2 = (m ((c.tc : Thread nD τ).loc main_arg2)) := by
  show StableHlo.after hostOps0 (W0 m ρ c) (Proc.devRef .tc main_arg2) = _
  after_results_simp
  try rfl
theorem entry0_bl : V1 m ρ c main_v11 = shapeCast S1x128 (m ((c.tc : Thread nD τ).loc main_arg3)) shapeCasts_S128_S1x128 := by
  show StableHlo.after hostOps0 (W0 m ρ c) (Proc.devRef .tc main_v11) = _
  after_results_simp
  try rfl
theorem entry0_g : V1 m ρ c main_v12 = shapeCast S1x128 (m ((c.tc : Thread nD τ).loc main_arg4)) shapeCasts_S128_S1x128 := by
  show StableHlo.after hostOps0 (W0 m ρ c) (Proc.devRef .tc main_v12) = _
  after_results_simp
  try rfl
theorem entry0_beta : V1 m ρ c main_v13 = shapeCast S1x128 (m ((c.tc : Thread nD τ).loc main_arg5)) shapeCasts_S128_S1x128 := by
  show StableHlo.after hostOps0 (W0 m ρ c) (Proc.devRef .tc main_v13) = _
  after_results_simp
  try rfl
theorem entry0_mean : V1 m ρ c main_v14 = shapeCast S1x128 (m ((c.tc : Thread nD τ).loc main_arg6)) shapeCasts_S128_S1x128 := by
  show StableHlo.after hostOps0 (W0 m ρ c) (Proc.devRef .tc main_v14) = _
  after_results_simp
  try rfl
theorem entry0_var : V1 m ρ c main_v15 = shapeCast S1x128 (m ((c.tc : Thread nD τ).loc main_arg7)) shapeCasts_S128_S1x128 := by
  show StableHlo.after hostOps0 (W0 m ρ c) (Proc.devRef .tc main_v15) = _
  after_results_simp
  try rfl

/-! ## What launch 1 finds: the features launch 0 left, their mean aggregation, layer 0's slices of the parameters -/

theorem entry1_h : V3 m ρ c main_v16 = W2 m ρ c (Proc.devRef .tc main_v16) := by
  show StableHlo.after hostOps1 (W2 m ρ c) (Proc.devRef .tc main_v16) = _
  after_results_simp
theorem entry1_agg : V3 m ρ c main_v28 = Cert.ReferenceIdeal.RefValue.meanAgg (m ((c.tc : Thread nD τ).loc main_arg1)) (W2 m ρ c (Proc.devRef .tc main_v16)) := by
  show StableHlo.after hostOps1 (W2 m ρ c) (Proc.devRef .tc main_v28) = _
  after_results_simp
  simp only [at2_main_v1 m ρ c, at2_main_v3 m ρ c, at2_main_v10 m ρ c]
  rfl
theorem entry1_wl : V3 m ρ c main_v30 = (Cert.ReferenceIdeal.Read.val_main_v44 (F := Ideal) (m ((c.tc : Thread nD τ).loc main_arg8))) := by
  show StableHlo.after hostOps1 (W2 m ρ c) (Proc.devRef .tc main_v30) = _
  after_results_simp
  simp only [at2_main_arg8 m ρ c]
  rfl
theorem entry1_wr : V3 m ρ c main_v34 = (Cert.ReferenceIdeal.Read.val_main_v52 (F := Ideal) (m ((c.tc : Thread nD τ).loc main_arg10))) := by
  show StableHlo.after hostOps1 (W2 m ρ c) (Proc.devRef .tc main_v34) = _
  after_results_simp
  simp only [at2_main_arg10 m ρ c]
  rfl
theorem entry1_bl : V3 m ρ c main_v43 = shapeCast S1x128 (Cert.ReferenceIdeal.Read.val_main_v47 (F := Ideal) (m ((c.tc : Thread nD τ).loc main_arg9))) shapeCasts_S128_S1x128 := by
  show StableHlo.after hostOps1 (W2 m ρ c) (Proc.devRef .tc main_v43) = _
  after_results_simp
  simp only [at2_main_arg9 m ρ c]
  rfl
theorem entry1_g : V3 m ρ c main_v44 = shapeCast S1x128 (Cert.ReferenceIdeal.Read.val_main_v56 (F := Ideal) (m ((c.tc : Thread nD τ).loc main_arg11))) shapeCasts_S128_S1x128 := by
  show StableHlo.after hostOps1 (W2 m ρ c) (Proc.devRef .tc main_v44) = _
  after_results_simp
  simp only [at2_main_arg11 m ρ c]
  rfl
theorem entry1_beta : V3 m ρ c main_v45 = shapeCast S1x128 (Cert.ReferenceIdeal.Read.val_main_v58 (F := Ideal) (m ((c.tc : Thread nD τ).loc main_arg12))) shapeCasts_S128_S1x128 := by
  show StableHlo.after hostOps1 (W2 m ρ c) (Proc.devRef .tc main_v45) = _
  after_results_simp
  simp only [at2_main_arg12 m ρ c]
  rfl
theorem entry1_mean : V3 m ρ c main_v46 = shapeCast S1x128 (Cert.ReferenceIdeal.Read.val_main_v60 (F := Ideal) (m ((c.tc : Thread nD τ).loc main_arg13))) shapeCasts_S128_S1x128 := by
  show StableHlo.after hostOps1 (W2 m ρ c) (Proc.devRef .tc main_v46) = _
  after_results_simp
  simp only [at2_main_arg13 m ρ c]
  rfl
theorem entry1_var : V3 m ρ c main_v47 = shapeCast S1x128 (Cert.ReferenceIdeal.Read.val_main_v62 (F := Ideal) (m ((c.tc : Thread nD τ).loc main_arg14))) shapeCasts_S128_S1x128 := by
  show StableHlo.after hostOps1 (W2 m ρ c) (Proc.devRef .tc main_v47) = _
  after_results_simp
  simp only [at2_main_arg14 m ρ c]
  rfl

/-! ## What launch 2 finds: the features launch 1 left, their mean aggregation, layer 1's slices of the parameters -/

theorem entry2_h : V5 m ρ c main_v48 = W4 m ρ c (Proc.devRef .tc main_v48) := by
  show StableHlo.after hostOps2 (W4 m ρ c) (Proc.devRef .tc main_v48) = _
  after_results_simp
theorem entry2_agg : V5 m ρ c main_v60 = Cert.ReferenceIdeal.RefValue.meanAgg (m ((c.tc : Thread nD τ).loc main_arg1)) (W4 m ρ c (Proc.devRef .tc main_v48)) := by
  show StableHlo.after hostOps2 (W4 m ρ c) (Proc.devRef .tc main_v60) = _
  after_results_simp
  simp only [at4_main_v1 m ρ c, at4_main_v3 m ρ c, at4_main_v10 m ρ c]
  rfl
theorem entry2_wl : V5 m ρ c main_v62 = (Cert.ReferenceIdeal.Read.val_main_v93 (F := Ideal) (m ((c.tc : Thread nD τ).loc main_arg8))) := by
  show StableHlo.after hostOps2 (W4 m ρ c) (Proc.devRef .tc main_v62) = _
  after_results_simp
  simp only [at4_main_arg8 m ρ c]
  rfl
theorem entry2_wr : V5 m ρ c main_v66 = (Cert.ReferenceIdeal.Read.val_main_v101 (F := Ideal) (m ((c.tc : Thread nD τ).loc main_arg10))) := by
  show StableHlo.after hostOps2 (W4 m ρ c) (Proc.devRef .tc main_v66) = _
  after_results_simp
  simp only [at4_main_arg10 m ρ c]
  rfl
theorem entry2_bl : V5 m ρ c main_v75 = shapeCast S1x128 (Cert.ReferenceIdeal.Read.val_main_v96 (F := Ideal) (m ((c.tc : Thread nD τ).loc main_arg9))) shapeCasts_S128_S1x128 := by
  show StableHlo.after hostOps2 (W4 m ρ c) (Proc.devRef .tc main_v75) = _
  after_results_simp
  simp only [at4_main_arg9 m ρ c]
  rfl
theorem entry2_g : V5 m ρ c main_v76 = shapeCast S1x128 (Cert.ReferenceIdeal.Read.val_main_v105 (F := Ideal) (m ((c.tc : Thread nD τ).loc main_arg11))) shapeCasts_S128_S1x128 := by
  show StableHlo.after hostOps2 (W4 m ρ c) (Proc.devRef .tc main_v76) = _
  after_results_simp
  simp only [at4_main_arg11 m ρ c]
  rfl
theorem entry2_beta : V5 m ρ c main_v77 = shapeCast S1x128 (Cert.ReferenceIdeal.Read.val_main_v107 (F := Ideal) (m ((c.tc : Thread nD τ).loc main_arg12))) shapeCasts_S128_S1x128 := by
  show StableHlo.after hostOps2 (W4 m ρ c) (Proc.devRef .tc main_v77) = _
  after_results_simp
  simp only [at4_main_arg12 m ρ c]
  rfl
theorem entry2_mean : V5 m ρ c main_v78 = shapeCast S1x128 (Cert.ReferenceIdeal.Read.val_main_v109 (F := Ideal) (m ((c.tc : Thread nD τ).loc main_arg13))) shapeCasts_S128_S1x128 := by
  show StableHlo.after hostOps2 (W4 m ρ c) (Proc.devRef .tc main_v78) = _
  after_results_simp
  simp only [at4_main_arg13 m ρ c]
  rfl
theorem entry2_var : V5 m ρ c main_v79 = shapeCast S1x128 (Cert.ReferenceIdeal.Read.val_main_v111 (F := Ideal) (m ((c.tc : Thread nD τ).loc main_arg14))) shapeCasts_S128_S1x128 := by
  show StableHlo.after hostOps2 (W4 m ρ c) (Proc.devRef .tc main_v79) = _
  after_results_simp
  simp only [at4_main_arg14 m ρ c]
  rfl

/-! ## What launch 3 finds: the features launch 2 left, their mean aggregation, layer 2's slices of the parameters -/

theorem entry3_h : V7 m ρ c main_v80 = W6 m ρ c (Proc.devRef .tc main_v80) := by
  show StableHlo.after hostOps3 (W6 m ρ c) (Proc.devRef .tc main_v80) = _
  after_results_simp
theorem entry3_agg : V7 m ρ c main_v92 = Cert.ReferenceIdeal.RefValue.meanAgg (m ((c.tc : Thread nD τ).loc main_arg1)) (W6 m ρ c (Proc.devRef .tc main_v80)) := by
  show StableHlo.after hostOps3 (W6 m ρ c) (Proc.devRef .tc main_v92) = _
  after_results_simp
  simp only [at6_main_v1 m ρ c, at6_main_v3 m ρ c, at6_main_v10 m ρ c]
  rfl
theorem entry3_wl : V7 m ρ c main_v94 = (Cert.ReferenceIdeal.Read.val_main_v142 (F := Ideal) (m ((c.tc : Thread nD τ).loc main_arg8))) := by
  show StableHlo.after hostOps3 (W6 m ρ c) (Proc.devRef .tc main_v94) = _
  after_results_simp
  simp only [at6_main_arg8 m ρ c]
  rfl
theorem entry3_wr : V7 m ρ c main_v98 = (Cert.ReferenceIdeal.Read.val_main_v150 (F := Ideal) (m ((c.tc : Thread nD τ).loc main_arg10))) := by
  show StableHlo.after hostOps3 (W6 m ρ c) (Proc.devRef .tc main_v98) = _
  after_results_simp
  simp only [at6_main_arg10 m ρ c]
  rfl
theorem entry3_bl : V7 m ρ c main_v107 = shapeCast S1x128 (Cert.ReferenceIdeal.Read.val_main_v145 (F := Ideal) (m ((c.tc : Thread nD τ).loc main_arg9))) shapeCasts_S128_S1x128 := by
  show StableHlo.after hostOps3 (W6 m ρ c) (Proc.devRef .tc main_v107) = _
  after_results_simp
  simp only [at6_main_arg9 m ρ c]
  rfl
theorem entry3_g : V7 m ρ c main_v108 = shapeCast S1x128 (Cert.ReferenceIdeal.Read.val_main_v154 (F := Ideal) (m ((c.tc : Thread nD τ).loc main_arg11))) shapeCasts_S128_S1x128 := by
  show StableHlo.after hostOps3 (W6 m ρ c) (Proc.devRef .tc main_v108) = _
  after_results_simp
  simp only [at6_main_arg11 m ρ c]
  rfl
theorem entry3_beta : V7 m ρ c main_v109 = shapeCast S1x128 (Cert.ReferenceIdeal.Read.val_main_v156 (F := Ideal) (m ((c.tc : Thread nD τ).loc main_arg12))) shapeCasts_S128_S1x128 := by
  show StableHlo.after hostOps3 (W6 m ρ c) (Proc.devRef .tc main_v109) = _
  after_results_simp
  simp only [at6_main_arg12 m ρ c]
  rfl
theorem entry3_mean : V7 m ρ c main_v110 = shapeCast S1x128 (Cert.ReferenceIdeal.Read.val_main_v158 (F := Ideal) (m ((c.tc : Thread nD τ).loc main_arg13))) shapeCasts_S128_S1x128 := by
  show StableHlo.after hostOps3 (W6 m ρ c) (Proc.devRef .tc main_v110) = _
  after_results_simp
  simp only [at6_main_arg13 m ρ c]
  rfl
theorem entry3_var : V7 m ρ c main_v111 = shapeCast S1x128 (Cert.ReferenceIdeal.Read.val_main_v160 (F := Ideal) (m ((c.tc : Thread nD τ).loc main_arg14))) shapeCasts_S128_S1x128 := by
  show StableHlo.after hostOps3 (W6 m ρ c) (Proc.devRef .tc main_v111) = _
  after_results_simp
  simp only [at6_main_arg14 m ρ c]
  rfl

end Cert.KernelIdeal.Stages

end
-- ==== Proof.KernelValue.lean ====
/-
  The idealized kernel's result as a function of its arguments.

  Launch 0 leaves the input projection of `x`; each later launch leaves one graph layer applied to the features
  the launch before it left, their mean aggregation over the edges, and that layer's slices of the parameters.
  Composing the four, the result buffer ends at the reference's own composition of the four layers (`feat3`),
  read at the kernel's argument arrays.
-/
import proofs.«128997_j62517543961152_1_alg».proof.Proof.KernelRun
import proofs.«128997_j62517543961152_1_alg».proof.Proof.KernelArrays
import proofs.«128997_j62517543961152_1_alg».proof.Proof.KernelStages
import Idealize.ShloMosaic.Lib.ValueLayout

set_option maxRecDepth 16384

noncomputable section

namespace Cert.KernelIdeal.KernelValue

open Cert.KernelIdeal Cert.KernelIdeal.Gen Cert.KernelIdeal.Stages
open Idealize.ShloMosaic Idealize.ShloMosaic.TcCoe Idealize.ShloMosaic.ValueIdx Idealize.SL.Sem
open Cert.ReferenceIdeal.RefValue

variable (m : (ℓ : Loc nD τ sig) → Buf (Elt Ideal) ℓ) (ρ : Dev nD → PrngReg) (c : Dev nD)

/-- A vector kept as a [1, 128] row, read along the row, is the vector. -/
theorem row_read (v : (⟨1, ![128]⟩ : Shape).Idx → EReal) (h : (⟨1, ![128]⟩ : Shape).ShapeCasts ⟨2, ![1, 128]⟩) :
    (fun j : Fin 128 => shapeCast ⟨2, ![1, 128]⟩ v h (ix2 (0 : Fin 1) j)) = fun j => v (ix1 j) :=
  funext fun j => shapeCast_a_1a_apply v h 0 j

/-- Launch 0's layer of the arrays it finds is the input projection of the arguments. -/
theorem G0_entry : Arrays.G0 (V1 m ρ) c = feat0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Arrays.G0 feat0
  rw [entry0_x m ρ c, entry0_w m ρ c, entry0_bl m ρ c, entry0_g m ρ c, entry0_beta m ρ c, entry0_mean m ρ c, entry0_var m ρ c]
  simp only [row_read]

/-- After launch 0 its output array holds the input projection. -/
theorem out0 : W2 m ρ c (Proc.devRef .tc main_v16) = feat0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  ((W2_arr m ρ c 7).trans (Arrays.final0 (V1 m ρ) c)).trans (G0_entry m ρ c)

/-- Launch 1's layer of the arrays it finds is the graph layer of the features launch 0 left. -/
theorem G1_entry : Arrays.G1 (V3 m ρ) c = layer (m ((c.tc : Thread nD τ).loc main_arg1)) (W2 m ρ c (Proc.devRef .tc main_v16)) (Cert.ReferenceIdeal.Read.val_main_v44 (F := Ideal) (m ((c.tc : Thread nD τ).loc main_arg8))) (Cert.ReferenceIdeal.Read.val_main_v52 (F := Ideal) (m ((c.tc : Thread nD τ).loc main_arg10)))
      (Cert.ReferenceIdeal.Read.val_main_v47 (F := Ideal) (m ((c.tc : Thread nD τ).loc main_arg9))) (Cert.ReferenceIdeal.Read.val_main_v56 (F := Ideal) (m ((c.tc : Thread nD τ).loc main_arg11))) (Cert.ReferenceIdeal.Read.val_main_v58 (F := Ideal) (m ((c.tc : Thread nD τ).loc main_arg12))) (Cert.ReferenceIdeal.Read.val_main_v60 (F := Ideal) (m ((c.tc : Thread nD τ).loc main_arg13))) (Cert.ReferenceIdeal.Read.val_main_v62 (F := Ideal) (m ((c.tc : Thread nD τ).loc main_arg14))) := by
  unfold Arrays.G1 layer
  rw [entry1_agg m ρ c, entry1_h m ρ c, entry1_wl m ρ c, entry1_wr m ρ c, entry1_bl m ρ c, entry1_g m ρ c, entry1_beta m ρ c, entry1_mean m ρ c, entry1_var m ρ c]
  simp only [row_read]

/-- After launch 1 its output array holds the features after 1 graph layer. -/
theorem out1 : W4 m ρ c (Proc.devRef .tc main_v48) = feat1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine ((W4_arr m ρ c 9).trans (Arrays.final1 (V3 m ρ) c)).trans ((G1_entry m ρ c).trans ?_)
  rw [out0 m ρ c]
  rfl

/-- Launch 2's layer of the arrays it finds is the graph layer of the features launch 1 left. -/
theorem G2_entry : Arrays.G2 (V5 m ρ) c = layer (m ((c.tc : Thread nD τ).loc main_arg1)) (W4 m ρ c (Proc.devRef .tc main_v48)) (Cert.ReferenceIdeal.Read.val_main_v93 (F := Ideal) (m ((c.tc : Thread nD τ).loc main_arg8))) (Cert.ReferenceIdeal.Read.val_main_v101 (F := Ideal) (m ((c.tc : Thread nD τ).loc main_arg10)))
      (Cert.ReferenceIdeal.Read.val_main_v96 (F := Ideal) (m ((c.tc : Thread nD τ).loc main_arg9))) (Cert.ReferenceIdeal.Read.val_main_v105 (F := Ideal) (m ((c.tc : Thread nD τ).loc main_arg11))) (Cert.ReferenceIdeal.Read.val_main_v107 (F := Ideal) (m ((c.tc : Thread nD τ).loc main_arg12))) (Cert.ReferenceIdeal.Read.val_main_v109 (F := Ideal) (m ((c.tc : Thread nD τ).loc main_arg13))) (Cert.ReferenceIdeal.Read.val_main_v111 (F := Ideal) (m ((c.tc : Thread nD τ).loc main_arg14))) := by
  unfold Arrays.G2 layer
  rw [entry2_agg m ρ c, entry2_h m ρ c, entry2_wl m ρ c, entry2_wr m ρ c, entry2_bl m ρ c, entry2_g m ρ c, entry2_beta m ρ c, entry2_mean m ρ c, entry2_var m ρ c]
  simp only [row_read]

/-- After launch 2 its output array holds the features after 2 graph layers. -/
theorem out2 : W6 m ρ c (Proc.devRef .tc main_v80) = feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine ((W6_arr m ρ c 9).trans (Arrays.final2 (V5 m ρ) c)).trans ((G2_entry m ρ c).trans ?_)
  rw [out1 m ρ c]
  rfl

/-- Launch 3's layer of the arrays it finds is the graph layer of the features launch 2 left. -/
theorem G3_entry : Arrays.G3 (V7 m ρ) c = layer (m ((c.tc : Thread nD τ).loc main_arg1)) (W6 m ρ c (Proc.devRef .tc main_v80)) (Cert.ReferenceIdeal.Read.val_main_v142 (F := Ideal) (m ((c.tc : Thread nD τ).loc main_arg8))) (Cert.ReferenceIdeal.Read.val_main_v150 (F := Ideal) (m ((c.tc : Thread nD τ).loc main_arg10)))
      (Cert.ReferenceIdeal.Read.val_main_v145 (F := Ideal) (m ((c.tc : Thread nD τ).loc main_arg9))) (Cert.ReferenceIdeal.Read.val_main_v154 (F := Ideal) (m ((c.tc : Thread nD τ).loc main_arg11))) (Cert.ReferenceIdeal.Read.val_main_v156 (F := Ideal) (m ((c.tc : Thread nD τ).loc main_arg12))) (Cert.ReferenceIdeal.Read.val_main_v158 (F := Ideal) (m ((c.tc : Thread nD τ).loc main_arg13))) (Cert.ReferenceIdeal.Read.val_main_v160 (F := Ideal) (m ((c.tc : Thread nD τ).loc main_arg14))) := by
  unfold Arrays.G3 layer
  rw [entry3_agg m ρ c, entry3_h m ρ c, entry3_wl m ρ c, entry3_wr m ρ c, entry3_bl m ρ c, entry3_g m ρ c, entry3_beta m ρ c, entry3_mean m ρ c, entry3_var m ρ c]
  simp only [row_read]

/-- After launch 3 its output array holds the features after 3 graph layers. -/
theorem out3 : W8 m ρ c (Proc.devRef .tc main_v112) = feat3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine ((W8_arr m ρ c 9).trans (Arrays.final3 (V7 m ρ) c)).trans ((G3_entry m ρ c).trans ?_)
  rw [out2 m ρ c]
  rfl

/-- THE RUN, READ: every weakly fair execution of the idealized kernel terminates without a fault, its result buffer
    holding the four layers composed, of the argument arrays, and the arguments unchanged. -/
theorem run : θ_run defs (onTc (τ := τ) (main (F := Ideal))) ⟨m, fun _ => 0, ρ⟩ (fun r => ∀ c : Dev nD,
      r.2.mem ((c.tc : Thread nD τ).loc main_v112) = feat3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out3 m ρ c), (h c).2⟩) (Cert.KernelIdeal.RunValue.run_result m ρ)

end Cert.KernelIdeal.KernelValue

end
-- ==== Proof.lean ====
/-
  A graph network on 100000 nodes and 640000 edges — an input projection with inference-mode batch normalisation and
  a rectifier, then three mean-aggregating graph layers with residuals — computed by four launches among host
  operations (the kernel) and by host operations alone (the reference).

  The kernel's dense layers run on blocks of 5000 rows, with bf16 operands of the matrix unit and the parameter
  vectors kept as [1, 128] rows; the reference's run on whole arrays. On the extended reals a change of float format
  is the identity and an entry of a layer depends on its own row only, so block by block the kernel computes the
  reference's layers: the same sums and products in the same order. The irregular part — the gather at the edges'
  sources, the scatter-add at their targets, the division by the clamped in-degree — is the same host operations in
  both programs, applied to features that are equal by the previous layer. No law of arithmetic beyond the
  reordering-free reading of a contraction as a sum is used, so the precondition is never opened.

  Proof.KernelRun: the kernel's run with its result named. Proof.KernelBlocks, Proof.KernelArrays: a launch's output
  array as a layer of the arrays it finds. Proof.KernelStages: what the host operations hand to each launch.
  Proof.KernelValue: the kernel's result. Proof.RefValue: the reference's result as the same composition.
-/
import proofs.«128997_j62517543961152_1_alg».proof.Defs
import proofs.«128997_j62517543961152_1_alg».proof.Proof.Gen.Kernel
import proofs.«128997_j62517543961152_1_alg».proof.Proof.Gen.Kernel.Frame
import proofs.«128997_j62517543961152_1_alg».proof.Proof.Gen.KernelIdeal
import proofs.«128997_j62517543961152_1_alg».proof.Proof.Gen.KernelIdeal.Frame
import proofs.«128997_j62517543961152_1_alg».proof.Proof.Gen.ReferenceIdeal
import proofs.«128997_j62517543961152_1_alg».proof.Proof.Gen.ReferenceIdeal.Run
import proofs.«128997_j62517543961152_1_alg».proof.Proof.Gen.ReferenceIdeal.Read
import proofs.«128997_j62517543961152_1_alg».proof.Proof.Gen.Pre_finite_inputs
import proofs.«128997_j62517543961152_1_alg».proof.Proof.RefValue
import proofs.«128997_j62517543961152_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the four layers composed, of argument arrays that agree. -/
theorem algebraic : Cert.algebraic_KernelIdeal_ReferenceIdeal := by
  intro m ρ m' ρ' _ hagree
  refine ⟨fun c => Cert.ReferenceIdeal.RefValue.feat3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v177_eq, Cert.ReferenceIdeal.RefValue.result_eq,
    h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
